-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x128 : Shape := ⟨2, ![1, 128]⟩
abbrev S128x128 : Shape := ⟨2, ![128, 128]⟩
abbrev S100000x64 : Shape := ⟨2, ![100000, 64]⟩

abbrev nBuf : Space → Nat
  | .hbm => 90
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S128, .f32⟩
  | .hbm, ⟨86, _⟩ => ⟨S1x128, .f32⟩
  | .hbm, ⟨87, _⟩ => ⟨S100000x128, .f32⟩
  | .hbm, ⟨88, _⟩ => ⟨S100000x64, .f32⟩
  | .hbm, ⟨89, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  concatenates_S128x64_S128x64_S128x128_d1 : Shape.Concatenates [S128x64, S128x64] S128x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S64_S64_S128_d0 : Shape.Concatenates [S64, S64] S128 0
  iota_S4000x128_d1_w32 : S4000x128.Iotas .tc 32 [1]
  slices_S100000x128_S100000x64_0_0 : S100000x128.Slices ![0, 0] S100000x64
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .i1⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x64, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x64, .f32⟩
  | .hbm, ⟨92, _⟩ => ⟨S1700000x1, .f32⟩
  | .hbm, ⟨93, _⟩ => ⟨S1700000x64, .f32⟩
  | .hbm, ⟨94, _⟩ => ⟨S1700000x64, .f32⟩
  | .hbm, ⟨95, _⟩ => ⟨S_, .f32⟩
  | .hbm, ⟨96, _⟩ => ⟨S100000x64, .f32⟩
  | .hbm, ⟨97, _⟩ => ⟨S1700000x1, .i32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | .hbm, ⟨122, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v47 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_c_10 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_12 : Ref sig .tc := ⟨.hbm, 103, rfl⟩
abbrev main_v66 : Ref sig .tc := ⟨.hbm, 104, rfl⟩
abbrev main_v67 : Ref sig .tc := ⟨.hbm, 105, rfl⟩
abbrev main_c_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelResults.lean ====
/-
  The idealized kernel's run, with its two result arrays read.

  @main is eleven segments in order: three stretches of host operations (the edge lists with self-loops, the degrees
  and the per-edge weights), the first product, the first aggregation, the bias and softplus, the joined head
  weights, the second product, the second aggregation with the joined biases, the bias and split exponential, and the
  two column slices. The buffer contents at each boundary are a fold from the launch memory: a host stretch applies
  its operations, a pallas_call leaves its arrays at what its write-backs hold and every other buffer as it was. Every
  weakly fair execution terminates in a state whose unscoped buffers hold the last boundary's contents `W11`; read
  at the two result buffers this gives the results, and at the arguments their launch contents.
-/
import proofs.«102110_j30743375904797_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the arguments as launched. -/
theorem run : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Results

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.FeatureProduct.lean ====
/-
  The first pallas_call: h1 = x · W1.

  Its grid has 25 points; point t multiplies rows 4000 t … 4000 t + 3999 of x (all 256 columns) by the whole of W1 and
  writes the 4000 × 128 product back as the same rows of the result. The operands are narrowed to bf16 before the
  product, which on the extended reals changes nothing, and the product accumulates into zero. So entry (r, q) of the
  result array is  Σ_k x(r, k) · W1(k, q), whatever the array held before.
-/
import proofs.«102110_j30743375904797_1_alg».proof.Proof.Gen.KernelIdeal.Frame
import proofs.«102110_j30743375904797_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.FeatureProduct

open Cert.KernelIdeal Cert.KernelIdeal.Gen

theorem zeroOffsets : (![0, 0] : Fin 2 → Nat) = fun _ => 0 := funext fun a => by fin_cases a <;> rfl

/-- The matrix product of a [100000, 256] array by a [256, 128] array, entry by entry. -/
def featureProduct (x : FVec Ideal S100000x256 .f32) (w : FVec Ideal S256x128 .f32) : FVec Ideal S100000x128 .f32 :=
  fun i => ∑ k : Fin 256, x (ix2 (i 0) k) * w (ix2 k (i 1))

/-- One block's product, read at an entry: the narrowing to bf16 is the identity on the extended reals, and the
    product into the zero accumulator is the sum over the contracted axis. -/
theorem payload_apply (x0 : FVec Ideal S4000x256 .f32) (x1 : FVec Ideal S256x128 .f32) (j : S4000x128.Idx) :
    k0_pay1 x0 x1 j = ∑ k : Fin 256, x0 (ix2 (j 0) k) * x1 (ix2 k (j 1)) := by
  obtain ⟨p, q, rfl⟩ : ∃ (p : Fin 4000) (q : Fin 128), j = ix2 p q := ⟨j 0, j 1, eq_ix2 j⟩
  unfold k0_pay1
  exact Cert.PlainMatmul.matmul_zero_apply dot_S4000x256_S256x128_S4000x128_1_0_0_1_n_n.wf none x0 x1 p q

/-- The printed index maps, decided once over the 25 grid points: the row-blocked windows sit at block row `t`, the
    resident operand at block (0, 0). -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What grid point `t` writes back is rows `4000 t … 4000 t + 3999` of `featureProduct` of the two operand arrays as the
    call finds them. -/
theorem writtenBack_eq (c : Dev nD) (t : Fin cfg0.N) :
    (dat0 V c).flushed 2 t
      = ((cfg0.win 2).blk t).view.read (Elt Ideal) (featureProduct (V c main_arg0) (V c main_arg2)) := by
  show (cfg0.win 2).cut (grid0.coords t) ((dat0 V c).after 2 t) = _
  rw [after0_2]
  unfold out0_2
  rw [View.canon_unit_zero zeroOffsets]
  simp only [View.ld_unit_zero (S := S4000x256) zeroOffsets, View.ld_unit_zero (S := S256x128) zeroOffsets]
  obtain ⟨e0, e1, e2, e3, e4, e5⟩ := blockIndices t
  funext j
  show k0_pay1 (iblk0 V c 0 t) (iblk0 V c 1 t) j
    = featureProduct (V c main_arg0) (V c main_arg2) (((cfg0.win 2).blk t).view.emb j)
  refine (payload_apply _ _ j).trans ?_
  have hj0 : (j 0).val < 4000 := (j 0).isLt
  have hj1 : (j 1).val < 128 := (j 1).isLt
  unfold featureProduct
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 256 + 1 * k.val = k.val
      omega
  have hr : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_2.index t (1 : Fin 2) * 128 + 1 * (j 1).val
      omega
  rw [hl, hr]

end

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v30).slice (win0_2.rect t)).set ↔ _
  rw [View.set_slice_whole, Rect.mem_set_unit]
  exact Iff.rfl

/-- The 25 row blocks of 4000 rows tile the 100000 rows: row `r` is in block `r / 4000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, e4, e5⟩ := blockIndices ⟨(i 0).val / 4000, ht⟩
  refine ⟨⟨(i 0).val / 4000, ht⟩, flush0_2 _, ?_⟩
  rw [mem_block]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    rw [e5]
    omega

/-- THE RESULT ARRAY of the call, from any entry contents `V`: `featureProduct` of the two operand arrays. -/
theorem result (V : (c : Dev nD) → (b : Ref sig .tc) → Buf (Elt Ideal) ((c : Thread nD τ).loc b)) (c : Dev nD) :
    (dat0 V c).arrAt 2 cfg0.N = featureProduct (V c main_arg0) (V c main_arg2) :=
  (dat0 V c).arrAt_eq_of_cover 2 (featureProduct (V c main_arg0) (V c main_arg2)) (fun t _ => writtenBack_eq V c t) covered

end Cert.KernelIdeal.FeatureProduct

end
-- ==== Proof.Activation.lean ====
/-
  Softplus on the extended reals, and the two ways the programs spell it.

  Both programs compute softplus in the numerically stable form
      softplus y = max(y, 0) + log(1 + exp(−|y|)),
  guarded by a test "y − 0 differs from itself", which picks y + 0 when it holds. On the extended reals nothing
  differs from itself, so the guard never fires and the stable form is the result. The kernel writes −|y| as
  0 − |y − 0|, the host as the negation of |y − 0|; the absolute value is max(a, −a) in both. Subtracting zero, adding
  zero and subtracting from zero are exact on the extended reals, so the two spellings are one function.
-/
import Idealize.ShloMosaic.PureOps.Ideal.Laws

noncomputable section

namespace Cert.Activation

open Idealize.ShloMosaic

/-- Softplus in its stable form, on the extended reals. -/
def softplus (y : EReal) : EReal := max y 0 + Ideal.log1p (Ideal.exp (-(max y (-y))))

/-- Nothing differs from itself: the ordered test … -/
theorem cmp_one_self (a : EReal) : Ideal.cmp .one a a = 0#1 := by simp [Ideal.cmp]

/-- … and the unordered one. -/
theorem cmp_une_self (a : EReal) : Ideal.cmp .une a a = 0#1 := by simp [Ideal.cmp]

/-- The kernel's spelling, with `z` the zero it subtracts, adds and subtracts from. -/
theorem softplus_of_kernel_form (y z : EReal) (hz : z = 0) :
    Scalar.select (Ideal.cmp .one (y - z) (y - z)) (y + z)
        (max y z + Ideal.log1p (Ideal.exp (z - max (y - z) (-(y - z))))) = softplus y := by
  subst hz
  rw [cmp_one_self, sub_zero, zero_sub]
  simp [Scalar.select, softplus]

/-- The host's spelling, with `z` the zero it subtracts and adds. -/
theorem softplus_of_host_form (y z : EReal) (hz : z = 0) :
    Scalar.select (Ideal.cmp .une (y - z) (y - z)) (y + z)
        (max y z + Ideal.log1p (Ideal.exp (-(max (y - z) (-(y - z)))))) = softplus y := by
  subst hz
  rw [cmp_une_self, sub_zero]
  simp [Scalar.select, softplus]

end Cert.Activation

end
-- ==== Proof.BiasSoftplus.lean ====
/-
  The second pallas_call: hidden = softplus(agg1 + b1).

  Its grid has 25 points; point t takes rows 4000 t … 4000 t + 3999 of the aggregated features and the one row of the
  bias, adds the bias to every row, applies softplus entry by entry, and writes the block back as the same rows of
  the result. So entry (r, q) of the result array is softplus(agg1(r, q) + b1(0, q)), whatever the array held
  before.
-/
import proofs.«102110_j30743375904797_1_alg».proof.Proof.Gen.KernelIdeal.Frame
import proofs.«102110_j30743375904797_1_alg».proof.Proof.Activation
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.BiasSoftplus

open Cert.KernelIdeal Cert.KernelIdeal.Gen

theorem zeroOffsets : (![0, 0] : Fin 2 → Nat) = fun _ => 0 := funext fun a => by fin_cases a <;> rfl

open Cert.Activation

/-- A row of biases added to every row of a [100000, 128] array, then softplus, entry by entry. -/
def biasSoftplus (x : FVec Ideal S100000x128 .f32) (b : FVec Ideal S1x128 .f32) : FVec Ideal S100000x128 .f32 :=
  fun i => softplus (x i + b (ix2 (0 : Fin 1) (i 1)))

/-- One block's value at an entry: the casts keep the shape, the bias row is repeated down the rows, and the guarded
    stable form is softplus. -/
theorem payload_apply (x0 : FVec Ideal S4000x128 .f32) (x1 : FVec Ideal S1x128 .f32) (j : S4000x128.Idx) :
    k1_pay1 (F := Ideal) x0 x1 j = softplus (x0 j + x1 (ix2 (0 : Fin 1) (j 1))) := by
  obtain ⟨p, q, rfl⟩ : ∃ (p : Fin 4000) (q : Fin 128), j = ix2 p q := ⟨j 0, j 1, eq_ix2 j⟩
  show k1_pay1 (F := Ideal) x0 x1 (ix2 p q) = softplus (x0 (ix2 p q) + x1 (ix2 (0 : Fin 1) q))
  unfold k1_pay1
  simp only [shapeCast_self]
  refine (softplus_of_kernel_form (x0 (ix2 p q) + broadcastTo S4000x128 x1 broadcasts_S1x128_S4000x128 (ix2 p q))
    (Ideal.ofBits .f32 0x00000000#32) Ideal.ofBits_zero_f32).trans ?_
  rw [broadcastTo_1b_ab_apply]

/-- The printed index maps, decided once over the 25 grid points: the row-blocked windows sit at block row `t`, the
    resident operand at block (0, 0). -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What grid point `t` writes back is rows `4000 t … 4000 t + 3999` of `biasSoftplus` of the two operand arrays as the
    call finds them. -/
theorem writtenBack_eq (c : Dev nD) (t : Fin cfg1.N) :
    (dat1 V c).flushed 2 t
      = ((cfg1.win 2).blk t).view.read (Elt Ideal) (biasSoftplus (V c main_v43) (V c main_v44)) := by
  show (cfg1.win 2).cut (grid1.coords t) ((dat1 V c).after 2 t) = _
  rw [after1_2]
  unfold out1_2
  rw [View.canon_unit_zero zeroOffsets]
  simp only [View.ld_unit_zero (S := S4000x128) zeroOffsets, View.ld_unit_zero (S := S1x128) zeroOffsets]
  obtain ⟨e0, e1, e2, e3, e4, e5⟩ := blockIndices t
  funext j
  show k1_pay1 (iblk1 V c 0 t) (iblk1 V c 1 t) j
    = biasSoftplus (V c main_v43) (V c main_v44) (((cfg1.win 2).blk t).view.emb j)
  refine (payload_apply _ _ j).trans ?_
  have hj0 : (j 0).val < 4000 := (j 0).isLt
  have hj1 : (j 1).val < 128 := (j 1).isLt
  unfold biasSoftplus
  have hl : iblk1 V c 0 t j = V c main_v43 (((cfg1.win 2).blk t).view.emb j) := by
    show V c main_v43 (((cfg1.win 0).blk t).view.emb j) = _
    refine congrArg (V c main_v43) (funext fun a => Fin.ext ?_)
    match a with
    | ⟨0, _⟩ =>
      show win1_0.index t (0 : Fin 2) * 4000 + 1 * (j 0).val = win1_2.index t (0 : Fin 2) * 4000 + 1 * (j 0).val
      omega
    | ⟨1, _⟩ =>
      show win1_0.index t (1 : Fin 2) * 128 + 1 * (j 1).val = win1_2.index t (1 : Fin 2) * 128 + 1 * (j 1).val
      omega
  have hr : iblk1 V c 1 t (ix2 (0 : Fin 1) (j 1))
      = V c main_v44 (ix2 (0 : Fin 1) ((((cfg1.win 2).blk t).view.emb j) 1)) := by
    show V c main_v44 (((cfg1.win 1).blk t).view.emb (ix2 (0 : Fin 1) (j 1))) = _
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega
  rw [hl, hr]

end

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v45).slice (win1_2.rect t)).set ↔ _
  rw [View.set_slice_whole, Rect.mem_set_unit]
  exact Iff.rfl

/-- The 25 row blocks of 4000 rows tile the 100000 rows: row `r` is in block `r / 4000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, -, -, e4, e5⟩ := blockIndices ⟨(i 0).val / 4000, ht⟩
  refine ⟨⟨(i 0).val / 4000, ht⟩, flush1_2 _, ?_⟩
  rw [mem_block]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win1_2.index ⟨(i 0).val / 4000, ht⟩ (1 : Fin 2) * 128 ≤ (i 1).val
      ∧ (i 1).val < win1_2.index ⟨(i 0).val / 4000, ht⟩ (1 : Fin 2) * 128 + 128
    rw [e5]
    omega

/-- THE RESULT ARRAY of the call, from any entry contents `V`: `biasSoftplus` of the two operand arrays. -/
theorem result (V : (c : Dev nD) → (b : Ref sig .tc) → Buf (Elt Ideal) ((c : Thread nD τ).loc b)) (c : Dev nD) :
    (dat1 V c).arrAt 2 cfg1.N = biasSoftplus (V c main_v43) (V c main_v44) :=
  (dat1 V c).arrAt_eq_of_cover 2 (biasSoftplus (V c main_v43) (V c main_v44)) (fun t _ => writtenBack_eq V c t) covered

end Cert.KernelIdeal.BiasSoftplus

end
-- ==== Proof.HeadProduct.lean ====
/-
  The third pallas_call: zcat = hidden · [W_mu | W_sig].

  Its grid has 25 points; point t multiplies rows 4000 t … 4000 t + 3999 of the hidden features (all 128 columns) by
  the whole 128 × 128 matrix of the two heads' weights side by side, and writes the 4000 × 128 product back as the same
  rows of the result. The operands are narrowed to bf16 before the product, which on the extended reals changes
  nothing, and the product accumulates into zero. So entry (r, q) of the result array is  Σ_k hidden(r, k) · W(k, q),
  whatever the array held before.
-/
import proofs.«102110_j30743375904797_1_alg».proof.Proof.Gen.KernelIdeal.Frame
import proofs.«102110_j30743375904797_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.HeadProduct

open Cert.KernelIdeal Cert.KernelIdeal.Gen

theorem zeroOffsets : (![0, 0] : Fin 2 → Nat) = fun _ => 0 := funext fun a => by fin_cases a <;> rfl

/-- The matrix product of a [100000, 128] array by a [128, 128] array, entry by entry. -/
def headProduct (x : FVec Ideal S100000x128 .f32) (w : FVec Ideal S128x128 .f32) : FVec Ideal S100000x128 .f32 :=
  fun i => ∑ k : Fin 128, x (ix2 (i 0) k) * w (ix2 k (i 1))

/-- One block's product, read at an entry: the casts keep the shape, the narrowing to bf16 is the identity on the
    extended reals, and the product into the zero accumulator is the sum over the contracted axis. -/
theorem payload_apply (x0 : FVec Ideal S4000x128 .f32) (x1 : FVec Ideal S128x128 .f32) (j : S4000x128.Idx) :
    k2_pay1 x0 x1 j = ∑ k : Fin 128, x0 (ix2 (j 0) k) * x1 (ix2 k (j 1)) := by
  obtain ⟨p, q, rfl⟩ : ∃ (p : Fin 4000) (q : Fin 128), j = ix2 p q := ⟨j 0, j 1, eq_ix2 j⟩
  unfold k2_pay1
  simp only [shapeCast_self]
  exact Cert.PlainMatmul.matmul_zero_apply dot_S4000x128_S128x128_S4000x128_1_0_0_1_n_n.wf none x0 x1 p q

/-- The printed index maps, decided once over the 25 grid points: the row-blocked windows sit at block row `t`, the
    resident operand at block (0, 0). -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What grid point `t` writes back is rows `4000 t … 4000 t + 3999` of `headProduct` of the two operand arrays as the
    call finds them. -/
theorem writtenBack_eq (c : Dev nD) (t : Fin cfg2.N) :
    (dat2 V c).flushed 2 t
      = ((cfg2.win 2).blk t).view.read (Elt Ideal) (headProduct (V c main_v45) (V c main_v46)) := by
  show (cfg2.win 2).cut (grid2.coords t) ((dat2 V c).after 2 t) = _
  rw [after2_2]
  unfold out2_2
  rw [View.canon_unit_zero zeroOffsets]
  simp only [View.ld_unit_zero (S := S4000x128) zeroOffsets, View.ld_unit_zero (S := S128x128) zeroOffsets]
  obtain ⟨e0, e1, e2, e3, e4, e5⟩ := blockIndices t
  funext j
  show k2_pay1 (iblk2 V c 0 t) (iblk2 V c 1 t) j
    = headProduct (V c main_v45) (V c main_v46) (((cfg2.win 2).blk t).view.emb j)
  refine (payload_apply _ _ j).trans ?_
  have hj0 : (j 0).val < 4000 := (j 0).isLt
  have hj1 : (j 1).val < 128 := (j 1).isLt
  unfold headProduct
  refine Finset.sum_congr rfl fun k _ => ?_
  have hl : iblk2 V c 0 t (ix2 (j 0) k) = V c main_v45 (ix2 ((((cfg2.win 2).blk t).view.emb j) 0) k) := by
    show V c main_v45 (((cfg2.win 0).blk t).view.emb (ix2 (j 0) k)) = _
    refine congrArg (V c main_v45) (funext fun a => Fin.ext ?_)
    match a with
    | ⟨0, _⟩ =>
      show win2_0.index t (0 : Fin 2) * 4000 + 1 * (j 0).val = win2_2.index t (0 : Fin 2) * 4000 + 1 * (j 0).val
      omega
    | ⟨1, _⟩ =>
      show win2_0.index t (1 : Fin 2) * 128 + 1 * k.val = k.val
      omega
  have hr : iblk2 V c 1 t (ix2 k (j 1)) = V c main_v46 (ix2 k ((((cfg2.win 2).blk t).view.emb j) 1)) := by
    show V c main_v46 (((cfg2.win 1).blk t).view.emb (ix2 k (j 1))) = _
    refine congrArg (V c main_v46) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega
  rw [hl, hr]

end

/-- An index of the result array is in point `t`'s block iff each coordinate is in the block's range on its axis. -/
theorem mem_block (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v47).slice (win2_2.rect t)).set ↔ _
  rw [View.set_slice_whole, Rect.mem_set_unit]
  exact Iff.rfl

/-- The 25 row blocks of 4000 rows tile the 100000 rows: row `r` is in block `r / 4000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 25 := N_2
  have ht : (i 0).val / 4000 < cfg2.N := by rw [hN]; omega
  obtain ⟨-, -, -, -, e4, e5⟩ := blockIndices ⟨(i 0).val / 4000, ht⟩
  refine ⟨⟨(i 0).val / 4000, ht⟩, flush2_2 _, ?_⟩
  rw [mem_block]
  intro a
  match a with
  | ⟨0, _⟩ =>
    show win2_2.index ⟨(i 0).val / 4000, ht⟩ (0 : Fin 2) * 4000 ≤ (i 0).val
      ∧ (i 0).val < win2_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win2_2.index ⟨(i 0).val / 4000, ht⟩ (1 : Fin 2) * 128 ≤ (i 1).val
      ∧ (i 1).val < win2_2.index ⟨(i 0).val / 4000, ht⟩ (1 : Fin 2) * 128 + 128
    rw [e5]
    omega

/-- THE RESULT ARRAY of the call, from any entry contents `V`: `headProduct` of the two operand arrays. -/
theorem result (V : (c : Dev nD) → (b : Ref sig .tc) → Buf (Elt Ideal) ((c : Thread nD τ).loc b)) (c : Dev nD) :
    (dat2 V c).arrAt 2 cfg2.N = headProduct (V c main_v45) (V c main_v46) :=
  (dat2 V c).arrAt_eq_of_cover 2 (headProduct (V c main_v45) (V c main_v46)) (fun t _ => writtenBack_eq V c t) covered

end Cert.KernelIdeal.HeadProduct

end
-- ==== Proof.BiasSplit.lean ====
/-
  The fourth pallas_call: the bias and the split activation of the two heads.

  Its grid has 25 points; point t takes rows 4000 t … 4000 t + 3999 of the aggregated head features and the one row of
  the two heads' biases side by side, adds the bias to every row, and keeps the sum in the first 64 columns (the
  location head) while taking its exponential in the last 64 (the scale head); the block goes back as the same rows of
  the result. So entry (r, q) of the result array is y = agg(r, q) + b(0, q) for q < 64 and exp y for q ≥ 64, whatever
  the array held before.
-/
import proofs.«102110_j30743375904797_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.BiasSplit

open Cert.KernelIdeal Cert.KernelIdeal.Gen

theorem zeroOffsets : (![0, 0] : Fin 2 → Nat) = fun _ => 0 := funext fun a => by fin_cases a <;> rfl

/-- A row of biases added to every row of a [100000, 128] array; the first 64 columns kept, the last 64
    exponentiated. -/
def biasSplit (x : FVec Ideal S100000x128 .f32) (b : FVec Ideal S1x128 .f32) : FVec Ideal S100000x128 .f32 :=
  fun i => if (i 1).val < 64 then x i + b (ix2 (0 : Fin 1) (i 1)) else Ideal.exp (x i + b (ix2 (0 : Fin 1) (i 1)))

/-- The lane test: column `q` of 128, as a 32-bit word, is below 64 as a signed integer exactly when `q < 64`. -/
theorem laneTest : ∀ q : Fin 128, IntOp.cmpi .slt (BitVec.ofNat 32 q.val) 64#32 = if q.val < 64 then 1#1 else 0#1 := by
  decide

/-- One block's value at an entry: the casts keep the shape, the bias row is repeated down the rows, and the lane
    test selects the sum or its exponential. -/
theorem payload_apply (x0 : FVec Ideal S4000x128 .f32) (x1 : FVec Ideal S1x128 .f32) (j : S4000x128.Idx) :
    k3_pay1 x0 x1 j = if (j 1).val < 64 then x0 j + x1 (ix2 (0 : Fin 1) (j 1))
      else Ideal.exp (x0 j + x1 (ix2 (0 : Fin 1) (j 1))) := by
  obtain ⟨p, q, rfl⟩ : ∃ (p : Fin 4000) (q : Fin 128), j = ix2 p q := ⟨j 0, j 1, eq_ix2 j⟩
  show k3_pay1 x0 x1 (ix2 p q) = if q.val < 64 then x0 (ix2 p q) + x1 (ix2 (0 : Fin 1) q)
      else Ideal.exp (x0 (ix2 p q) + x1 (ix2 (0 : Fin 1) q))
  unfold k3_pay1
  simp only [shapeCast_self]
  show Scalar.select (IntOp.cmpi .slt (iota .tc S4000x128 32 [1] iota_S4000x128_d1_w32 (ix2 p q)) 64#32)
      (x0 (ix2 p q) + broadcastTo S4000x128 x1 broadcasts_S1x128_S4000x128 (ix2 p q))
      (Ideal.exp (x0 (ix2 p q) + broadcastTo S4000x128 x1 broadcasts_S1x128_S4000x128 (ix2 p q))) = _
  rw [iota_single_apply, broadcastTo_1b_ab_apply]
  show Scalar.select (IntOp.cmpi .slt (BitVec.ofNat 32 q.val) 64#32) _ _ = _
  rw [laneTest q]
  by_cases hq : q.val < 64
  · rw [if_pos hq, if_pos hq]; rfl
  · rw [if_neg hq, if_neg hq]; rfl

/-- The printed index maps, decided once over the 25 grid points: the row-blocked windows sit at block row `t`, the
    resident operand at block (0, 0). -/
theorem blockIndices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What grid point `t` writes back is rows `4000 t … 4000 t + 3999` of `biasSplit` of the two operand arrays as the
    call finds them. -/
theorem writtenBack_eq (c : Dev nD) (t : Fin cfg3.N) :
    (dat3 V c).flushed 2 t
      = ((cfg3.win 2).blk t).view.read (Elt Ideal) (biasSplit (V c main_v60) (V c main_v62)) := by
  show (cfg3.win 2).cut (grid3.coords t) ((dat3 V c).after 2 t) = _
  rw [after3_2]
  unfold out3_2
  rw [View.canon_unit_zero zeroOffsets]
  simp only [View.ld_unit_zero (S := S4000x128) zeroOffsets, View.ld_unit_zero (S := S1x128) zeroOffsets]
  obtain ⟨e0, e1, e2, e3, e4, e5⟩ := blockIndices t
  funext j
  show k3_pay1 (iblk3 V c 0 t) (iblk3 V c 1 t) j
    = biasSplit (V c main_v60) (V c main_v62) (((cfg3.win 2).blk t).view.emb j)
  refine (payload_apply _ _ j).trans ?_
  have hj0 : (j 0).val < 4000 := (j 0).isLt
  have hj1 : (j 1).val < 128 := (j 1).isLt
  unfold biasSplit
  have hl : iblk3 V c 0 t j = V c main_v60 (((cfg3.win 2).blk t).view.emb j) := by
    show V c main_v60 (((cfg3.win 0).blk t).view.emb j) = _
    refine congrArg (V c main_v60) (funext fun a => Fin.ext ?_)
    match a with
    | ⟨0, _⟩ =>
      show win3_0.index t (0 : Fin 2) * 4000 + 1 * (j 0).val = win3_2.index t (0 : Fin 2) * 4000 + 1 * (j 0).val
      omega
    | ⟨1, _⟩ =>
      show win3_0.index t (1 : Fin 2) * 128 + 1 * (j 1).val = win3_2.index t (1 : Fin 2) * 128 + 1 * (j 1).val
      omega
  have hr : iblk3 V c 1 t (ix2 (0 : Fin 1) (j 1))
      = V c main_v62 (ix2 (0 : Fin 1) ((((cfg3.win 2).blk t).view.emb j) 1)) := by
    show V c main_v62 (((cfg3.win 1).blk t).view.emb (ix2 (0 : Fin 1) (j 1))) = _
    refine congrArg (V c main_v62) (funext fun a => Fin.ext ?_)
    match a with
    | ⟨0, _⟩ =>
      show win3_1.index t (0 : Fin 2) * 1 + 1 * 0 = 0
      omega
    | ⟨1, _⟩ =>
      show win3_1.index t (1 : Fin 2) * 128 + 1 * (j 1).val = win3_2.index t (1 : Fin 2) * 128 + 1 * (j 1).val
      omega
  rw [hl, hr]
  show (if (j 1).val < 64 then _ else _) = (if ((((cfg3.win 2).blk t).view.emb j) 1).val < 64 then _ else _)
  have hcol : ((((cfg3.win 2).blk t).view.emb j) 1).val = (j 1).val := by
    show win3_2.index t (1 : Fin 2) * 128 + 1 * (j 1).val = (j 1).val
    omega
  rw [hcol]

end

/-- An index of the result array is in point `t`'s block iff each coordinate is in the block's range on its axis. -/
theorem mem_block (t : Fin cfg3.N) (i : S100000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v63).slice (win3_2.rect t)).set ↔ _
  rw [View.set_slice_whole, Rect.mem_set_unit]
  exact Iff.rfl

/-- The 25 row blocks of 4000 rows tile the 100000 rows: row `r` is in block `r / 4000`. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 25 := N_3
  have ht : (i 0).val / 4000 < cfg3.N := by rw [hN]; omega
  obtain ⟨-, -, -, -, e4, e5⟩ := blockIndices ⟨(i 0).val / 4000, ht⟩
  refine ⟨⟨(i 0).val / 4000, ht⟩, flush3_2 _, ?_⟩
  rw [mem_block]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win3_2.index ⟨(i 0).val / 4000, ht⟩ (1 : Fin 2) * 128 ≤ (i 1).val
      ∧ (i 1).val < win3_2.index ⟨(i 0).val / 4000, ht⟩ (1 : Fin 2) * 128 + 128
    rw [e5]
    omega

/-- THE RESULT ARRAY of the call, from any entry contents `V`: `biasSplit` of the two operand arrays. -/
theorem result (V : (c : Dev nD) → (b : Ref sig .tc) → Buf (Elt Ideal) ((c : Thread nD τ).loc b)) (c : Dev nD) :
    (dat3 V c).arrAt 2 cfg3.N = biasSplit (V c main_v60) (V c main_v62) :=
  (dat3 V c).arrAt_eq_of_cover 2 (biasSplit (V c main_v60) (V c main_v62)) (fun t _ => writtenBack_eq V c t) covered

end Cert.KernelIdeal.BiasSplit

end
-- ==== Proof.LibRowGatherScatter.lean ====
/-
  Row gather and row scatter-add read at coordinates.

  What `x[idx]` on the rows of a matrix `x : [N, C]` at an integer column `idx : [E, 1]` lowers to is a
  `stablehlo.gather` with offset_dims `[1]`, collapsed_slice_dims `[0]`, start_index_map `[0]`, index_vector_dim 1 and
  slice_sizes `[1, C]`: result row `e` is the operand's row at the start index `idx[e, 0]` read as a signed integer
  and CLAMPED into `[0, N − 1]` (`pickRow`, `gather_rows_apply`; for a flat operand `x : [N]`, `gather_vec_apply`).
  What a segment sum of the rows of `upd : [E, C]` into `x : [N, C]` lowers to is a `stablehlo.scatter` with an `add`
  body, update_window_dims `[1]`, inserted_window_dims `[0]`, scatter_dims_to_operand_dims `[0]` and
  index_vector_dim 1: the start index is read signed and NOT clamped, so update row `e` lands on operand row `v`
  exactly when `idx[e, 0]` IS `v` as an integer (`lands`), and is dropped when it names no row. At the ideal instance
  element `(v, c)` of the result is the operand's plus the sum of `upd[e, c]` over the rows `e` that land on `v`
  (`scatterAdd_rows_apply`). A row that lands on `v` is a row the gather reads at `v` (`pickRow_of_lands`).
  All statements are generic in the sizes; the dimension numbers are literal records over any proof of their
  conditions, so a program's printed record is an instance by unfolding its name.
-/
import Idealize.ShloMosaic.Lib.ValueIdx

noncomputable section

open scoped BigOperators

namespace Idealize.ShloMosaic.RowOps

open Idealize.ShloMosaic Idealize.ShloMosaic.ValueIdx

/-! ## The row a start index names -/

/-- The operand row a gather reads for result row `e`: the start index `idx[e, 0]` read as a signed integer and
    clamped into `[0, N − 1]` (a negative index reads row 0, one past the end row `N − 1`). -/
def pickRow {N E w : Nat} (hN : 0 < N) (idx : IVec ⟨2, ![E, 1]⟩ w) (e : Fin E) : Fin N :=
  ⟨min (idx (ix2 e (0 : Fin 1))).toInt.toNat (N - 1), by omega⟩

/-- Update row `e` lands on operand row `v`: the start index `idx[e, 0]`, read as a signed integer and not
    clamped, is `v`. -/
def lands {N E w : Nat} (idx : IVec ⟨2, ![E, 1]⟩ w) (e : Fin E) (v : Fin N) : Prop :=
  (idx (ix2 e (0 : Fin 1))).toInt = (v.val : Int)

instance {N E w : Nat} (idx : IVec ⟨2, ![E, 1]⟩ w) (e : Fin E) (v : Fin N) : Decidable (lands idx e v) :=
  inferInstanceAs (Decidable ((idx (ix2 e (0 : Fin 1))).toInt = (v.val : Int)))

/-- A row that lands on `v` is read at `v`: an index that is a row needs no clamping. -/
theorem pickRow_of_lands {N E w : Nat} (hN : 0 < N) (idx : IVec ⟨2, ![E, 1]⟩ w) (e : Fin E) (v : Fin N)
    (h : lands idx e v) : pickRow hN idx e = v := by
  refine Fin.ext ?_
  unfold lands at h
  show min (idx (ix2 e (0 : Fin 1))).toInt.toNat (N - 1) = v.val
  have hv := v.isLt
  rw [h]
  simp only [Int.toNat_natCast]
  omega

/-- The same for a second index array that agrees with the first at row `e`. -/
theorem pickRow_of_lands_of_eq {N E w : Nat} (hN : 0 < N) (idx idx' : IVec ⟨2, ![E, 1]⟩ w) (e : Fin E) (v : Fin N)
    (h : lands idx e v) (h' : idx' (ix2 e (0 : Fin 1)) = idx (ix2 e (0 : Fin 1))) : pickRow hN idx' e = v := by
  have : lands idx' e v := by unfold lands; rw [h']; exact h
  exact pickRow_of_lands hN idx' e v this

/-! ## `stablehlo.gather` of the rows of a rank-2 operand at a column of start indices, read at an index -/

section Gather
variable {α : Type}

/-- The dimension numbers of `x[idx]` on rows, for an operand `[N, C]`, start indices `[E, 1]` and result
    `[E, C]`; their conditions `wf` are decided on a program's literal shapes. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `pickRow idx e`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (pickRow hN idx e) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have hst : (gatherRowsDims N E C wf).start (ix2 e c) idx 1 = 0 := by
      unfold GatherDims.start
      rw [dif_neg (fun h => absurd (List.mem_singleton.mp h) (show ¬((1 : Fin 2) = 0) by decide))]
    rw [hst]
    simp only [Nat.add_zero, Nat.zero_add]
    rfl

/-- The dimension numbers of `x[idx]` on a flat operand `[N]` at a column of start indices `[E, 1]`, result `[E]`;
    their conditions `wf` are decided on a program's literal shapes. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at `pickRow idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (pickRow hN idx e)) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## `stablehlo.scatter` with an `add` body of the rows of the updates into a rank-2 operand, read at an index -/

section Scatter

/-- The dimension numbers of a row segment sum, for an operand `[N, C]`, scatter indices `[E, 1]` and updates
    `[E, C]`; their conditions `wf` are decided on a program's literal shapes. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c')` starts at `idx[e, 0]`, read signed … -/
theorem scatterRows_start_row (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c') ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
theorem scatterRows_start_col (idx : IVec ⟨2, ![E, 1]⟩ w) (e : Fin E) (c' : Fin C) :
    (scatterRowsDims N E C wf).start (ix2 e c') idx 1 = 0 := by
  unfold ScatterDims.start
  rw [dif_neg (fun h => absurd (List.mem_singleton.mp h) (show ¬((1 : Fin 2) = 0) by decide))]

/-- The row axis is inserted: the window coordinate on it is 0 … -/
theorem scatterRows_window_row (e : Fin E) (c' : Fin C) : (scatterRowsDims N E C wf).window (ix2 e c') 0 = 0 := by
  unfold ScatterDims.window
  rw [dif_neg (by simp [ScatterDims.sKept, Shape.kept])]

/-- … and on the column axis it is the update's column. -/
theorem scatterRows_window_col (e : Fin E) (c' : Fin C) : (scatterRowsDims N E C wf).window (ix2 e c') 1 = c'.val := by
  rfl

/-- WHERE AN UPDATE LANDS: update `(e, c')` lands on operand element `(v, c)` exactly when row `e` lands on row
    `v` and the columns agree. An update whose start index names no row has no result index. -/
theorem resultIdx?_rows (idx : IVec ⟨2, ![E, 1]⟩ w) (e : Fin E) (c' : Fin C) (v : Fin N) (c : Fin C) :
    (scatterRowsDims N E C wf).resultIdx? (ix2 e c') idx = some (ix2 v c) ↔ lands idx e v ∧ c' = c := by
  have h0 := scatterRows_start_row wf idx e c'
  have h1 := scatterRows_start_col wf idx e c'
  have w0 := scatterRows_window_row wf e c'
  have w1 := scatterRows_window_col wf e c'
  have hv := v.isLt
  have hc' := c'.isLt
  unfold lands
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = v.val at e0
        omega
      · change ((0 : Int) + (c'.val : Int)).toNat = c.val at e1
        omega
    · rintro ⟨hl, rfl⟩
      funext a; refine Fin.ext ?_
      match a with
      | ⟨0, _⟩ =>
        show ((scatterRowsDims N E C wf).start (ix2 e c') idx 0 + ((scatterRowsDims N E C wf).window (ix2 e c') 0 : Nat)).toNat = v.val
        rw [h0, w0, hl]; simp
      | ⟨1, _⟩ =>
        show ((scatterRowsDims N E C wf).start (ix2 e c') idx 1 + ((scatterRowsDims N E C wf).window (ix2 e c') 1 : Nat)).toNat = c'.val
        rw [h1, w1]; simp
  · rename_i h
    constructor
    · intro hf; exact absurd hf (by simp)
    · rintro ⟨hl, rfl⟩
      exfalso; apply h
      intro a
      match a with
      | ⟨0, _⟩ =>
        show 0 ≤ (scatterRowsDims N E C wf).start (ix2 e c') idx 0 + ((scatterRowsDims N E C wf).window (ix2 e c') 0 : Nat) ∧
          (scatterRowsDims N E C wf).start (ix2 e c') idx 0 + ((scatterRowsDims N E C wf).window (ix2 e c') 0 : Nat) < (N : Int)
        rw [h0, w0, hl]; constructor <;> omega
      | ⟨1, _⟩ =>
        show 0 ≤ (scatterRowsDims N E C wf).start (ix2 e c') idx 1 + ((scatterRowsDims N E C wf).window (ix2 e c') 1 : Nat) ∧
          (scatterRowsDims N E C wf).start (ix2 e c') idx 1 + ((scatterRowsDims N E C wf).window (ix2 e c') 1 : Nat) < (C : Int)
        rw [h1, w1]; constructor <;> omega

/-- THE ROW SCATTER-ADD READ AT `(v, c)`, at the ideal instance: the operand's element plus the sum of column `c` of
    the update rows that land on row `v`. Rows whose start index names no operand row contribute nothing. -/
theorem scatterAdd_rows_apply {φ : FTy} (x : FVec Ideal ⟨2, ![N, C]⟩ φ) (idx : IVec ⟨2, ![E, 1]⟩ w)
    (upd : FVec Ideal ⟨2, ![E, C]⟩ φ) (v : Fin N) (c : Fin C) :
    Host.scatterAdd (F := Ideal) (scatterRowsDims N E C wf) x idx upd (ix2 v c) =
      x (ix2 v c) + ∑ e ∈ Finset.univ.filter (fun e : Fin E => lands idx e v), upd (ix2 e c) := by
  show Ideal.hostScatterAdd (scatterRowsDims N E C wf) x idx upd (ix2 v c) = _
  unfold Ideal.hostScatterAdd
  congr 1
  symm
  refine Finset.sum_nbij' (fun e : Fin E => (ix2 e c : (⟨2, ![E, C]⟩ : Shape).Idx))
    (fun j : (⟨2, ![E, C]⟩ : Shape).Idx => (j 0 : Fin E)) ?_ ?_ ?_ ?_ ?_
  · intro e he
    have he' := (Finset.mem_filter.mp he).2
    exact Finset.mem_filter.mpr ⟨Finset.mem_univ _, (resultIdx?_rows wf idx e c v c).mpr ⟨he', rfl⟩⟩
  · intro j hj
    obtain ⟨a, b, rfl⟩ : ∃ a b, j = ix2 a b := ⟨j 0, j 1, eq_ix2 j⟩
    have hj' := (Finset.mem_filter.mp hj).2
    exact Finset.mem_filter.mpr ⟨Finset.mem_univ _, ((resultIdx?_rows wf idx a b v c).mp hj').1⟩
  · intro e _; rfl
  · intro j hj
    obtain ⟨a, b, rfl⟩ : ∃ a b, j = ix2 a b := ⟨j 0, j 1, eq_ix2 j⟩
    have hj' := (Finset.mem_filter.mp hj).2
    obtain rfl : b = c := ((resultIdx?_rows wf idx a b v c).mp hj').2
    rfl
  · intro e _; rfl

end Scatter

/-! ## The same scatter into a flat operand: one update element per scatter index -/

section ScatterVec

/-- The dimension numbers of a segment sum of a flat `upd : [E]` into `x : [N]` at scatter indices `[E, 1]`: no
    window axes; their conditions `wf` are decided on a program's literal shapes. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]`, read signed … -/
theorem scatterVec_start (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and its one axis is inserted: the window coordinate is 0. -/
theorem scatterVec_window (e : Fin E) : (scatterVecDims N E wf).window (ix1 e) 0 = 0 := by
  unfold ScatterDims.window
  rw [dif_neg (by simp [ScatterDims.sKept, Shape.kept])]

/-- WHERE AN UPDATE LANDS: update `e` lands on operand element `v` exactly when `lands idx e v`. -/
theorem resultIdx?_vec (idx : IVec ⟨2, ![E, 1]⟩ w) (e : Fin E) (v : Fin N) :
    (scatterVecDims N E wf).resultIdx? (ix1 e) idx = some (ix1 v) ↔ lands idx e v := by
  have h0 := scatterVec_start wf idx e
  have w0 := scatterVec_window wf e
  have hv := v.isLt
  unfold lands
  unfold ScatterDims.resultIdx?
  split
  · rename_i h
    rw [Option.some.injEq]
    constructor
    · intro hf
      have e0 := congrArg (fun f => (f 0).val) hf
      simp only [h0, w0] at e0
      have p0 := (h 0).1
      rw [h0, w0] at p0
      change ((idx (ix2 e (0 : Fin 1))).toInt + ((0 : Nat) : Int)).toNat = v.val at e0
      omega
    · intro hl
      funext a
      obtain rfl : a = 0 := Subsingleton.elim _ _
      refine Fin.ext ?_
      show ((scatterVecDims N E wf).start (ix1 e) idx 0 + ((scatterVecDims N E wf).window (ix1 e) 0 : Nat)).toNat = v.val
      rw [h0, w0, hl]; simp
  · rename_i h
    constructor
    · intro hf; exact absurd hf (by simp)
    · intro hl
      exfalso; apply h
      intro a
      obtain rfl : a = 0 := Subsingleton.elim _ _
      show 0 ≤ (scatterVecDims N E wf).start (ix1 e) idx 0 + ((scatterVecDims N E wf).window (ix1 e) 0 : Nat) ∧
        (scatterVecDims N E wf).start (ix1 e) idx 0 + ((scatterVecDims N E wf).window (ix1 e) 0 : Nat) < (N : Int)
      rw [h0, w0, hl]; constructor <;> omega

/-- THE FLAT SCATTER-ADD READ AT `v`, at the ideal instance: the operand's element plus the sum of the updates that
    land on `v`. -/
theorem scatterAdd_vec_apply {φ : FTy} (x : FVec Ideal ⟨1, ![N]⟩ φ) (idx : IVec ⟨2, ![E, 1]⟩ w)
    (upd : FVec Ideal ⟨1, ![E]⟩ φ) (v : Fin N) :
    Host.scatterAdd (F := Ideal) (scatterVecDims N E wf) x idx upd (ix1 v) =
      x (ix1 v) + ∑ e ∈ Finset.univ.filter (fun e : Fin E => lands idx e v), upd (ix1 e) := by
  show Ideal.hostScatterAdd (scatterVecDims N E wf) x idx upd (ix1 v) = _
  unfold Ideal.hostScatterAdd
  congr 1
  symm
  refine Finset.sum_nbij' (fun e : Fin E => (ix1 e : (⟨1, ![E]⟩ : Shape).Idx))
    (fun j : (⟨1, ![E]⟩ : Shape).Idx => (j 0 : Fin E)) ?_ ?_ ?_ ?_ ?_
  · intro e he
    have he' := (Finset.mem_filter.mp he).2
    exact Finset.mem_filter.mpr ⟨Finset.mem_univ _, (resultIdx?_vec wf idx e v).mpr he'⟩
  · intro j hj
    obtain ⟨a, rfl⟩ : ∃ a, j = ix1 a := ⟨j 0, eq_ix1 j⟩
    have hj' := (Finset.mem_filter.mp hj).2
    exact Finset.mem_filter.mpr ⟨Finset.mem_univ _, (resultIdx?_vec wf idx a v).mp hj'⟩
  · intro e _; rfl
  · intro j _
    obtain ⟨a, rfl⟩ : ∃ a, j = ix1 a := ⟨j 0, eq_ix1 j⟩
    rfl
  · intro e _; rfl

end ScatterVec

end Idealize.ShloMosaic.RowOps

end
-- ==== Proof.LibGraphAggregate.lean ====
/-
  A weighted neighbourhood sum read at an entry.

  A graph layer aggregates the rows of a feature matrix `h : [N, C]` along edges: edge `e` reads the row its source
  index names, scales it by the edge's weight `wt e`, and adds it onto the row its destination index names, all
  destinations starting from zero. As host operations this is a row gather at a column of source indices, a product
  with the weights sent to a column `[E] → [E, 1]` and then across the `C` columns, and a row scatter-add into the
  zero matrix at a column of destination indices. Read at `(v, c)` on the extended reals it is

      Σ over the edges e that land on v of  h (row read by e, c) · wt e,

  the same formula at every width `C`: column `c` of the aggregate depends on column `c` of `h` alone. The dimension
  records are the literal ones of the row gather and row scatter, over any proof of their conditions.
-/
import Idealize.ShloMosaic.PureOps.Ideal.Laws
import Idealize.ShloMosaic.Lib.ValueIdx
import Idealize.ShloMosaic.Lib.Pipeline.Value
import proofs.«102110_j30743375904797_1_alg».proof.Proof.LibRowGatherScatter

noncomputable section

open scoped BigOperators

namespace Idealize.ShloMosaic.RowOps

open Idealize.ShloMosaic Idealize.ShloMosaic.ValueIdx

/-- A vector of `E` entries sent to a column `[E, 1]` and then across `C` columns holds entry `e` all along row `e`. -/
theorem weightColumns_apply {α : Type} {E C : Nat} (hE : E ≠ 1)
    (b1 : (⟨1, ![E]⟩ : Shape).BroadcastsInDim ⟨2, ![E, 1]⟩ ![0])
    (b2 : (⟨2, ![E, 1]⟩ : Shape).BroadcastsInDim ⟨2, ![E, C]⟩ ![0, 1])
    (wt : (⟨1, ![E]⟩ : Shape).Idx → α) (e : Fin E) (c : Fin C) :
    broadcastInDim ⟨2, ![E, C]⟩ ![0, 1] b2 (broadcastInDim ⟨2, ![E, 1]⟩ ![0] b1 wt) (ix2 e c) = wt (ix1 e) := by
  rw [broadcastInDim_apply _ b2 _ (ix2 e c) (ix2 e (0 : Fin 1)) (fun a => by
        match a with
        | ⟨0, _⟩ => show e.val = if E = 1 then 0 else e.val; rw [if_neg hE]
        | ⟨1, _⟩ => show 0 = if (1 : Nat) = 1 then 0 else c.val; rw [if_pos rfl]),
    broadcastInDim_apply _ b1 _ (ix2 e (0 : Fin 1)) (ix1 e) (fun a => by
        match a with
        | ⟨0, _⟩ => show e.val = if E = 1 then 0 else e.val; rw [if_neg hE])]

/-- The f32 zero pattern sent to every entry of a matrix is the number zero at every entry. -/
theorem zeroMatrix_apply {N C : Nat}
    (bz : (⟨0, ![]⟩ : Shape).BroadcastsInDim ⟨2, ![N, C]⟩ ![]) (i : (⟨2, ![N, C]⟩ : Shape).Idx) :
    broadcastInDim ⟨2, ![N, C]⟩ ![] bz (constant (F := Ideal) ⟨0, ![]⟩ .f32 0x00000000#32) i = (0 : EReal) := by
  rw [broadcastInDim_apply _ bz _ i (fun a => a.elim0) (fun a => a.elim0)]
  show Ideal.ofBits .f32 0x00000000#32 = 0
  exact Ideal.ofBits_zero_f32

/-- THE AGGREGATE READ AT `(v, c)`: the sum, over the edges whose destination index is `v`, of entry `c` of the
    row the edge's source index reads, times the edge's weight. -/
theorem aggregate_apply {N E C w : Nat} (hN : 0 < N) (hE : E ≠ 1)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (bz : (⟨0, ![]⟩ : Shape).BroadcastsInDim ⟨2, ![N, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (src dst : IVec ⟨2, ![E, 1]⟩ w) (wt : FVec Ideal ⟨1, ![E]⟩ .f32) (h : FVec Ideal ⟨2, ![N, C]⟩ .f32)
    (v : Fin N) (c : Fin C) :
    Host.scatterAdd (F := Ideal) (scatterRowsDims N E C wfs)
        (broadcastInDim ⟨2, ![N, C]⟩ ![] bz (constant (F := Ideal) ⟨0, ![]⟩ .f32 0x00000000#32)) dst
        (mulf (Host.gather (gatherRowsDims N E C wfg) h src)
          (broadcastInDim ⟨2, ![E, C]⟩ ![0, 1] b2 (broadcastInDim ⟨2, ![E, 1]⟩ ![0] b1 wt))) (ix2 v c)
      = ∑ e ∈ Finset.univ.filter (fun e : Fin E => lands dst e v), h (ix2 (pickRow hN src e) c) * wt (ix1 e) := by
  rw [scatterAdd_rows_apply wfs, zeroMatrix_apply, zero_add]
  refine Finset.sum_congr rfl fun e _ => ?_
  show FloatOps.mulf (Host.gather (gatherRowsDims N E C wfg) h src (ix2 e c))
      (broadcastInDim ⟨2, ![E, C]⟩ ![0, 1] b2 (broadcastInDim ⟨2, ![E, 1]⟩ ![0] b1 wt) (ix2 e c)) = _
  rw [gather_rows_apply hN wfg, weightColumns_apply hE b1 b2, Ideal.mulf_def]

end Idealize.ShloMosaic.RowOps

end
-- ==== Proof.NodeAggregate.lean ====
/-
  The kernel's neighbourhood aggregation, as one function, read at an entry.

  Both aggregations of the kernel's program run the same host operations on a [100000, 128] feature matrix `h`: the
  source ids (an id below zero is moved up by the node count) become a column of row indices, the rows of `h` they name
  are gathered, each gathered row is scaled by its edge's weight, and the scaled rows are added into a zero matrix at
  the rows the destination ids name. Entry (v, q) of the result is the sum, over the edges whose destination is v, of
  h(source row, q) times the edge's weight.
-/
import proofs.«102110_j30743375904797_1_alg».proof.Proof.Gen.KernelIdeal
import proofs.«102110_j30743375904797_1_alg».proof.Proof.LibGraphAggregate

noncomputable section

open scoped BigOperators

namespace Cert.KernelIdeal.NodeAggregate

open Cert.KernelIdeal Cert.KernelIdeal.Facts₀ Idealize.ShloMosaic Idealize.ShloMosaic.ValueIdx Idealize.ShloMosaic.RowOps

/-- The column of row indices the gather reads: an id below zero is moved up by the node count. -/
def sourceColumn (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The column of row indices the scatter adds into. -/
def destColumn (d : IVec S1700000 32) : IVec S1700000x1 32 :=
  broadcastInDim S1700000x1 ![0] bcast_S1700000_S1700000x1_0 d

/-- The aggregation's host operations, composed. -/
def aggregate (s d : IVec S1700000 32) (wt : FVec Ideal S1700000 .f32) (h : FVec Ideal S100000x128 .f32) :
    FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (destColumn d)
    (mulf (Host.gather gather_S100000x128_S1700000x1_S1700000x128_1_0_n_n_0_1_1128 h (sourceColumn s))
      (broadcastInDim S1700000x128 ![0, 1] bcast_S1700000x1_S1700000x128_0_1
        (broadcastInDim S1700000x1 ![0] bcast_S1700000_S1700000x1_0 wt)))

/-- Entry (v, q) of the aggregate: the weighted sum over the edges that land on v of entry q of the row each reads. -/
theorem aggregate_apply (s d : IVec S1700000 32) (wt : FVec Ideal S1700000 .f32) (h : FVec Ideal S100000x128 .f32)
    (v : Fin 100000) (q : Fin 128) :
    aggregate s d wt h (ix2 v q)
      = ∑ e ∈ Finset.univ.filter (fun e : Fin 1700000 => lands (destColumn d) e v),
          h (ix2 (pickRow (N := 100000) (by decide) (sourceColumn s) e) q) * wt (ix1 e) :=
  RowOps.aggregate_apply (N := 100000) (E := 1700000) (C := 128) (by decide) (by decide)
    gather_S100000x128_S1700000x1_S1700000x128_1_0_n_n_0_1_1128.wf
    scatter_S100000x128_S1700000x1_S1700000x128_1_0_0_1.wf
    bcast_S_S100000x128 bcast_S1700000_S1700000x1_0 bcast_S1700000x1_S1700000x128_0_1
    (sourceColumn s) (destColumn d) wt h v q

end Cert.KernelIdeal.NodeAggregate

end
-- ==== Proof.KernelFold.lean ====
/-
  The kernel's boundary contents, read back one boundary at a time.

  The run leaves the results at the last boundary's contents, a fold through @main from the launch memory. This module
  opens the fold: the edge data (source ids, destination ids, edge weights) and the arguments as the first pallas_call
  finds them; each pallas_call's result array by its whole-array function of its two operand arrays; each host stretch by
  evaluating its operations on the boundary before it; and the buffers a segment does not write, carried across it. The
  outcome is each result as a closed expression in the arguments, the edge data, and the four calls' functions.
-/
import proofs.«102110_j30743375904797_1_alg».proof.Proof.Gen.KernelIdeal.Frame
import proofs.«102110_j30743375904797_1_alg».proof.Proof.FeatureProduct
import proofs.«102110_j30743375904797_1_alg».proof.Proof.BiasSoftplus
import proofs.«102110_j30743375904797_1_alg».proof.Proof.HeadProduct
import proofs.«102110_j30743375904797_1_alg».proof.Proof.BiasSplit
import proofs.«102110_j30743375904797_1_alg».proof.Proof.NodeAggregate
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.KernelIdeal.NodeAggregate (aggregate)
open Cert.KernelIdeal.FeatureProduct (featureProduct)
open Cert.KernelIdeal.BiasSoftplus (biasSoftplus)
open Cert.KernelIdeal.HeadProduct (headProduct)
open Cert.KernelIdeal.BiasSplit (biasSplit)

variable (m : (ℓ : Loc nD τ sig) → Buf (Elt Ideal) ℓ) (ρ : Dev nD → PrngReg) (c : Dev nD)

/-! ## The edge data, as the first pallas_call finds it -/

/-- The source ids of the edges and self-loops. -/
def sourceIds : IVec S1700000 32 := W3 m ρ c (Proc.devRef .tc main_v3)
/-- Their destination ids. -/
def destIds : IVec S1700000 32 := W3 m ρ c (Proc.devRef .tc main_v6)
/-- Their weights. -/
def edgeWeights : FVec Ideal S1700000 .f32 := W3 m ρ c (Proc.devRef .tc main_v29)

/-! ## The arguments at the first pallas_call's entry: no host operation before it writes one -/

theorem entry_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem entry_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem entry_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem entry_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem entry_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem entry_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem entry_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Buffers carried across a segment that does not write them -/

theorem at4_v3 : W4 m ρ c (Proc.devRef .tc main_v3) = W3 m ρ c (Proc.devRef .tc main_v3) := W4_of_ne m ρ c main_v3 (by decide)
theorem at4_v6 : W4 m ρ c (Proc.devRef .tc main_v6) = W3 m ρ c (Proc.devRef .tc main_v6) := W4_of_ne m ρ c main_v6 (by decide)
theorem at4_v29 : W4 m ρ c (Proc.devRef .tc main_v29) = W3 m ρ c (Proc.devRef .tc main_v29) := W4_of_ne m ρ c main_v29 (by decide)
theorem at4_arg3 : W4 m ρ c (Proc.devRef .tc main_arg3) = W3 m ρ c (Proc.devRef .tc main_arg3) := W4_of_ne m ρ c main_arg3 (by decide)
theorem at4_arg4 : W4 m ρ c (Proc.devRef .tc main_arg4) = W3 m ρ c (Proc.devRef .tc main_arg4) := W4_of_ne m ρ c main_arg4 (by decide)
theorem at4_arg5 : W4 m ρ c (Proc.devRef .tc main_arg5) = W3 m ρ c (Proc.devRef .tc main_arg5) := W4_of_ne m ρ c main_arg5 (by decide)
theorem at4_arg6 : W4 m ρ c (Proc.devRef .tc main_arg6) = W3 m ρ c (Proc.devRef .tc main_arg6) := W4_of_ne m ρ c main_arg6 (by decide)
theorem at4_arg7 : W4 m ρ c (Proc.devRef .tc main_arg7) = W3 m ρ c (Proc.devRef .tc main_arg7) := W4_of_ne m ρ c main_arg7 (by decide)
theorem at5_v3 : W5 m ρ c (Proc.devRef .tc main_v3) = W4 m ρ c (Proc.devRef .tc main_v3) := by
  show StableHlo.after hostOps1 (W4 m ρ c) (Proc.devRef .tc main_v3) = _
  after_results_simp <;> rfl
theorem at5_v6 : W5 m ρ c (Proc.devRef .tc main_v6) = W4 m ρ c (Proc.devRef .tc main_v6) := by
  show StableHlo.after hostOps1 (W4 m ρ c) (Proc.devRef .tc main_v6) = _
  after_results_simp <;> rfl
theorem at5_v29 : W5 m ρ c (Proc.devRef .tc main_v29) = W4 m ρ c (Proc.devRef .tc main_v29) := by
  show StableHlo.after hostOps1 (W4 m ρ c) (Proc.devRef .tc main_v29) = _
  after_results_simp <;> rfl
theorem at5_arg4 : W5 m ρ c (Proc.devRef .tc main_arg4) = W4 m ρ c (Proc.devRef .tc main_arg4) := by
  show StableHlo.after hostOps1 (W4 m ρ c) (Proc.devRef .tc main_arg4) = _
  after_results_simp <;> rfl
theorem at5_arg5 : W5 m ρ c (Proc.devRef .tc main_arg5) = W4 m ρ c (Proc.devRef .tc main_arg5) := by
  show StableHlo.after hostOps1 (W4 m ρ c) (Proc.devRef .tc main_arg5) = _
  after_results_simp <;> rfl
theorem at5_arg6 : W5 m ρ c (Proc.devRef .tc main_arg6) = W4 m ρ c (Proc.devRef .tc main_arg6) := by
  show StableHlo.after hostOps1 (W4 m ρ c) (Proc.devRef .tc main_arg6) = _
  after_results_simp <;> rfl
theorem at5_arg7 : W5 m ρ c (Proc.devRef .tc main_arg7) = W4 m ρ c (Proc.devRef .tc main_arg7) := by
  show StableHlo.after hostOps1 (W4 m ρ c) (Proc.devRef .tc main_arg7) = _
  after_results_simp <;> rfl
theorem at6_v3 : W6 m ρ c (Proc.devRef .tc main_v3) = W5 m ρ c (Proc.devRef .tc main_v3) := W6_of_ne m ρ c main_v3 (by decide)
theorem at6_v6 : W6 m ρ c (Proc.devRef .tc main_v6) = W5 m ρ c (Proc.devRef .tc main_v6) := W6_of_ne m ρ c main_v6 (by decide)
theorem at6_v29 : W6 m ρ c (Proc.devRef .tc main_v29) = W5 m ρ c (Proc.devRef .tc main_v29) := W6_of_ne m ρ c main_v29 (by decide)
theorem at6_arg4 : W6 m ρ c (Proc.devRef .tc main_arg4) = W5 m ρ c (Proc.devRef .tc main_arg4) := W6_of_ne m ρ c main_arg4 (by decide)
theorem at6_arg5 : W6 m ρ c (Proc.devRef .tc main_arg5) = W5 m ρ c (Proc.devRef .tc main_arg5) := W6_of_ne m ρ c main_arg5 (by decide)
theorem at6_arg6 : W6 m ρ c (Proc.devRef .tc main_arg6) = W5 m ρ c (Proc.devRef .tc main_arg6) := W6_of_ne m ρ c main_arg6 (by decide)
theorem at6_arg7 : W6 m ρ c (Proc.devRef .tc main_arg7) = W5 m ρ c (Proc.devRef .tc main_arg7) := W6_of_ne m ρ c main_arg7 (by decide)
theorem at7_v3 : W7 m ρ c (Proc.devRef .tc main_v3) = W6 m ρ c (Proc.devRef .tc main_v3) := by
  show StableHlo.after hostOps2 (W6 m ρ c) (Proc.devRef .tc main_v3) = _
  after_results_simp <;> rfl
theorem at7_v6 : W7 m ρ c (Proc.devRef .tc main_v6) = W6 m ρ c (Proc.devRef .tc main_v6) := by
  show StableHlo.after hostOps2 (W6 m ρ c) (Proc.devRef .tc main_v6) = _
  after_results_simp <;> rfl
theorem at7_v29 : W7 m ρ c (Proc.devRef .tc main_v29) = W6 m ρ c (Proc.devRef .tc main_v29) := by
  show StableHlo.after hostOps2 (W6 m ρ c) (Proc.devRef .tc main_v29) = _
  after_results_simp <;> rfl
theorem at7_v45 : W7 m ρ c (Proc.devRef .tc main_v45) = W6 m ρ c (Proc.devRef .tc main_v45) := by
  show StableHlo.after hostOps2 (W6 m ρ c) (Proc.devRef .tc main_v45) = _
  after_results_simp <;> rfl
theorem at7_arg5 : W7 m ρ c (Proc.devRef .tc main_arg5) = W6 m ρ c (Proc.devRef .tc main_arg5) := by
  show StableHlo.after hostOps2 (W6 m ρ c) (Proc.devRef .tc main_arg5) = _
  after_results_simp <;> rfl
theorem at7_arg7 : W7 m ρ c (Proc.devRef .tc main_arg7) = W6 m ρ c (Proc.devRef .tc main_arg7) := by
  show StableHlo.after hostOps2 (W6 m ρ c) (Proc.devRef .tc main_arg7) = _
  after_results_simp <;> rfl
theorem at8_v3 : W8 m ρ c (Proc.devRef .tc main_v3) = W7 m ρ c (Proc.devRef .tc main_v3) := W8_of_ne m ρ c main_v3 (by decide)
theorem at8_v6 : W8 m ρ c (Proc.devRef .tc main_v6) = W7 m ρ c (Proc.devRef .tc main_v6) := W8_of_ne m ρ c main_v6 (by decide)
theorem at8_v29 : W8 m ρ c (Proc.devRef .tc main_v29) = W7 m ρ c (Proc.devRef .tc main_v29) := W8_of_ne m ρ c main_v29 (by decide)
theorem at8_arg5 : W8 m ρ c (Proc.devRef .tc main_arg5) = W7 m ρ c (Proc.devRef .tc main_arg5) := W8_of_ne m ρ c main_arg5 (by decide)
theorem at8_arg7 : W8 m ρ c (Proc.devRef .tc main_arg7) = W7 m ρ c (Proc.devRef .tc main_arg7) := W8_of_ne m ρ c main_arg7 (by decide)

/-! ## The first product -/

theorem features_eq : W4 m ρ c (Proc.devRef .tc main_v30) = featureProduct (m ((c : Thread nD τ).loc main_arg0)) (m ((c : Thread nD τ).loc main_arg2)) := by
  rw [show W4 m ρ c (Proc.devRef .tc main_v30) = (dat0 (V3 m ρ) c).arrAt 2 cfg0.N from W4_arr m ρ c 2,
    FeatureProduct.result (V3 m ρ) c]
  show featureProduct (W3 m ρ c (Proc.devRef .tc main_arg0)) (W3 m ρ c (Proc.devRef .tc main_arg2)) = _
  rw [entry_arg0, entry_arg2]

/-! ## The first aggregation and the bias row -/

theorem aggregated1_eq : W5 m ρ c (Proc.devRef .tc main_v43)
    = aggregate (sourceIds m ρ c) (destIds m ρ c) (edgeWeights m ρ c) (featureProduct (m ((c : Thread nD τ).loc main_arg0)) (m ((c : Thread nD τ).loc main_arg2))) := by
  have h : W5 m ρ c (Proc.devRef .tc main_v43)
      = aggregate (W4 m ρ c (Proc.devRef .tc main_v3)) (W4 m ρ c (Proc.devRef .tc main_v6)) (W4 m ρ c (Proc.devRef .tc main_v29)) (W4 m ρ c (Proc.devRef .tc main_v30)) := by
    show StableHlo.after hostOps1 (W4 m ρ c) (Proc.devRef .tc main_v43) = _
    after_results_simp <;> rfl
  rw [h, at4_v3, at4_v6, at4_v29, features_eq]
  rfl

theorem biasRow1_eq : W5 m ρ c (Proc.devRef .tc main_v44) = shapeCast S1x128 (m ((c : Thread nD τ).loc main_arg3)) shapeCasts_S128_S1x128 := by
  have h : W5 m ρ c (Proc.devRef .tc main_v44) = shapeCast S1x128 (W4 m ρ c (Proc.devRef .tc main_arg3)) shapeCasts_S128_S1x128 := by
    show StableHlo.after hostOps1 (W4 m ρ c) (Proc.devRef .tc main_v44) = _
    after_results_simp <;> rfl
  rw [h, at4_arg3, entry_arg3]

/-! ## The hidden features -/

theorem hidden_eq : W6 m ρ c (Proc.devRef .tc main_v45)
    = biasSoftplus (aggregate (sourceIds m ρ c) (destIds m ρ c) (edgeWeights m ρ c) (featureProduct (m ((c : Thread nD τ).loc main_arg0)) (m ((c : Thread nD τ).loc main_arg2))))
        (shapeCast S1x128 (m ((c : Thread nD τ).loc main_arg3)) shapeCasts_S128_S1x128) := by
  rw [show W6 m ρ c (Proc.devRef .tc main_v45) = (dat1 (V5 m ρ) c).arrAt 2 cfg1.N from W6_arr m ρ c 2,
    BiasSoftplus.result (V5 m ρ) c]
  show biasSoftplus (W5 m ρ c (Proc.devRef .tc main_v43)) (W5 m ρ c (Proc.devRef .tc main_v44)) = _
  rw [aggregated1_eq, biasRow1_eq]

/-! ## The joined head weights and the second product -/

theorem headWeights_eq : W7 m ρ c (Proc.devRef .tc main_v46)
    = concatenate S128x128 1 [⟨S128x64, (m ((c : Thread nD τ).loc main_arg4))⟩, ⟨S128x64, (m ((c : Thread nD τ).loc main_arg6))⟩] concatenates_S128x64_S128x64_S128x128_d1 := by
  have h : W7 m ρ c (Proc.devRef .tc main_v46)
      = concatenate S128x128 1 [⟨S128x64, W6 m ρ c (Proc.devRef .tc main_arg4)⟩, ⟨S128x64, W6 m ρ c (Proc.devRef .tc main_arg6)⟩] concatenates_S128x64_S128x64_S128x128_d1 := by
    show StableHlo.after hostOps2 (W6 m ρ c) (Proc.devRef .tc main_v46) = _
    after_results_simp <;> rfl
  rw [h, at6_arg4, at5_arg4, at4_arg4, entry_arg4, at6_arg6, at5_arg6, at4_arg6, entry_arg6]

/-- The hidden features and the joined weights, named for the statements below. -/
abbrev hidden : FVec Ideal S100000x128 .f32 :=
  biasSoftplus (aggregate (sourceIds m ρ c) (destIds m ρ c) (edgeWeights m ρ c) (featureProduct (m ((c : Thread nD τ).loc main_arg0)) (m ((c : Thread nD τ).loc main_arg2))))
    (shapeCast S1x128 (m ((c : Thread nD τ).loc main_arg3)) shapeCasts_S128_S1x128)
abbrev headWeights : FVec Ideal S128x128 .f32 :=
  concatenate S128x128 1 [⟨S128x64, (m ((c : Thread nD τ).loc main_arg4))⟩, ⟨S128x64, (m ((c : Thread nD τ).loc main_arg6))⟩] concatenates_S128x64_S128x64_S128x128_d1

theorem heads_eq : W8 m ρ c (Proc.devRef .tc main_v47) = headProduct (hidden m ρ c) (headWeights m c) := by
  rw [show W8 m ρ c (Proc.devRef .tc main_v47) = (dat2 (V7 m ρ) c).arrAt 2 cfg2.N from W8_arr m ρ c 2,
    HeadProduct.result (V7 m ρ) c]
  show headProduct (W7 m ρ c (Proc.devRef .tc main_v45)) (W7 m ρ c (Proc.devRef .tc main_v46)) = _
  rw [at7_v45, hidden_eq, headWeights_eq]

/-! ## The second aggregation and the joined bias row -/

theorem edge8_v3 : W8 m ρ c (Proc.devRef .tc main_v3) = sourceIds m ρ c := by
  rw [at8_v3, at7_v3, at6_v3, at5_v3, at4_v3]; rfl
theorem edge8_v6 : W8 m ρ c (Proc.devRef .tc main_v6) = destIds m ρ c := by
  rw [at8_v6, at7_v6, at6_v6, at5_v6, at4_v6]; rfl
theorem edge8_v29 : W8 m ρ c (Proc.devRef .tc main_v29) = edgeWeights m ρ c := by
  rw [at8_v29, at7_v29, at6_v29, at5_v29, at4_v29]; rfl

theorem aggregated2_eq : W9 m ρ c (Proc.devRef .tc main_v60)
    = aggregate (sourceIds m ρ c) (destIds m ρ c) (edgeWeights m ρ c) (headProduct (hidden m ρ c) (headWeights m c)) := by
  have h : W9 m ρ c (Proc.devRef .tc main_v60)
      = aggregate (W8 m ρ c (Proc.devRef .tc main_v3)) (W8 m ρ c (Proc.devRef .tc main_v6)) (W8 m ρ c (Proc.devRef .tc main_v29)) (W8 m ρ c (Proc.devRef .tc main_v47)) := by
    show StableHlo.after hostOps3 (W8 m ρ c) (Proc.devRef .tc main_v60) = _
    after_results_simp <;> rfl
  rw [h, edge8_v3, edge8_v6, edge8_v29, heads_eq]

/-- The two heads' biases side by side, as a row. -/
abbrev headBiasRow : FVec Ideal S1x128 .f32 :=
  shapeCast S1x128 (concatenate S128 0 [⟨S64, (m ((c : Thread nD τ).loc main_arg5))⟩, ⟨S64, (m ((c : Thread nD τ).loc main_arg7))⟩] concatenates_S64_S64_S128_d0) shapeCasts_S128_S1x128

theorem biasRow2_eq : W9 m ρ c (Proc.devRef .tc main_v62) = headBiasRow m c := by
  have h : W9 m ρ c (Proc.devRef .tc main_v62)
      = shapeCast S1x128 (concatenate S128 0 [⟨S64, W8 m ρ c (Proc.devRef .tc main_arg5)⟩, ⟨S64, W8 m ρ c (Proc.devRef .tc main_arg7)⟩] concatenates_S64_S64_S128_d0) shapeCasts_S128_S1x128 := by
    show StableHlo.after hostOps3 (W8 m ρ c) (Proc.devRef .tc main_v62) = _
    after_results_simp <;> rfl
  rw [h, at8_arg5, at7_arg5, at6_arg5, at5_arg5, at4_arg5, entry_arg5, at8_arg7, at7_arg7, at6_arg7, at5_arg7, at4_arg7, entry_arg7]

/-! ## The last pallas_call and the two slices -/

/-- The 128-wide array the last pallas_call leaves: the location head in its first 64 columns, the scale head in its
    last 64. -/
abbrev bothHeads : FVec Ideal S100000x128 .f32 :=
  biasSplit (aggregate (sourceIds m ρ c) (destIds m ρ c) (edgeWeights m ρ c) (headProduct (hidden m ρ c) (headWeights m c)))
    (headBiasRow m c)

theorem bothHeads_eq : W10 m ρ c (Proc.devRef .tc main_v63) = bothHeads m ρ c := by
  rw [show W10 m ρ c (Proc.devRef .tc main_v63) = (dat3 (V9 m ρ) c).arrAt 2 cfg3.N from W10_arr m ρ c 2,
    BiasSplit.result (V9 m ρ) c]
  show biasSplit (W9 m ρ c (Proc.devRef .tc main_v60)) (W9 m ρ c (Proc.devRef .tc main_v62)) = _
  rw [aggregated2_eq, biasRow2_eq]

/-- THE LOCATION RESULT: the first 64 columns. -/
theorem location_eq : W11 m ρ c (Proc.devRef .tc main_v64)
    = extractStridedSlice S100000x64 ![0, 0] (bothHeads m ρ c) slices_S100000x128_S100000x64_0_0 := by
  have h : W11 m ρ c (Proc.devRef .tc main_v64)
      = extractStridedSlice S100000x64 ![0, 0] (W10 m ρ c (Proc.devRef .tc main_v63)) slices_S100000x128_S100000x64_0_0 := by
    show StableHlo.after hostOps4 (W10 m ρ c) (Proc.devRef .tc main_v64) = _
    after_results_simp <;> rfl
  rw [h, bothHeads_eq]

/-- THE SCALE RESULT: the last 64 columns. -/
theorem scale_eq : W11 m ρ c (Proc.devRef .tc main_v65)
    = extractStridedSlice S100000x64 ![0, 64] (bothHeads m ρ c) slices_S100000x128_S100000x64_0_64 := by
  have h : W11 m ρ c (Proc.devRef .tc main_v65)
      = extractStridedSlice S100000x64 ![0, 64] (W10 m ρ c (Proc.devRef .tc main_v63)) slices_S100000x128_S100000x64_0_64 := by
    show StableHlo.after hostOps4 (W10 m ρ c) (Proc.devRef .tc main_v65) = _
    after_results_simp <;> rfl
  rw [h, bothHeads_eq]

end Cert.KernelIdeal.Fold

end
-- ==== Proof.LibJoinAxis.lean ====
/-
  A join of equally sized arrays along one axis of a matrix, read at an entry.

  When N matrices of one shape are laid end to end along the columns (each K columns wide), column l of the
  joined matrix is column l % K of piece l / K, on the same row; laid end to end along the rows (each K rows
  tall), row l of the joined matrix is row l % K of piece l / K, on the same column. The pieces are given as a
  family indexed by their position; a literal list of N pieces of one shape is the list of that family.
-/
import Idealize.ShloMosaic.Lib.ValueIdx
import Idealize.ShloMosaic.Lib.Pipeline.Value

namespace Cert.LibJoinAxis

open Idealize.ShloMosaic Idealize.ShloMosaic.ValueIdx

/-- `N` matrices of `A` rows and `K` columns joined along the columns into `W` columns, read at row `p` and
    column `l`: piece `n = l / K` at row `p` and column `c = l % K`. -/
theorem joinCols_apply {α : Type} {A K N W : Nat} (f : Fin N → (⟨2, ![A, K]⟩ : Shape).Idx → α)
    (h : Shape.Concatenates
      ((List.ofFn fun n : Fin N => (⟨⟨2, ![A, K]⟩, f n⟩ : (s : Shape) × (s.Idx → α))).map (·.1)) ⟨2, ![A, W]⟩ 1)
    (p : Fin A) (l : Fin W) (n : Fin N) (hn : l.val / K = n.val) (c : Fin K) (hc : c.val = l.val % K) :
    concatenate ⟨2, ![A, W]⟩ 1 (List.ofFn fun n : Fin N => (⟨⟨2, ![A, K]⟩, f n⟩ : (s : Shape) × (s.Idx → α))) h (ix2 p l)
      = f n (ix2 p c) :=
  concatenate_ofFn_apply (t := ⟨2, ![A, W]⟩) (s₁ := ⟨2, ![A, K]⟩) (1 : Fin 2) f h rfl K rfl (ix2 p l) n hn (ix2 p c) hc
    (fun b hb => by
      match b with
      | ⟨0, _⟩ => rfl
      | ⟨1, _⟩ => exact absurd rfl hb)

/-- `N` matrices of `K` rows and `B` columns joined along the rows into `H` rows, read at row `l` and column
    `q`: piece `n = l / K` at row `r = l % K` and column `q`. -/
theorem joinRows_apply {α : Type} {B K N H : Nat} (f : Fin N → (⟨2, ![K, B]⟩ : Shape).Idx → α)
    (h : Shape.Concatenates
      ((List.ofFn fun n : Fin N => (⟨⟨2, ![K, B]⟩, f n⟩ : (s : Shape) × (s.Idx → α))).map (·.1)) ⟨2, ![H, B]⟩ 0)
    (l : Fin H) (q : Fin B) (n : Fin N) (hn : l.val / K = n.val) (r : Fin K) (hr : r.val = l.val % K) :
    concatenate ⟨2, ![H, B]⟩ 0 (List.ofFn fun n : Fin N => (⟨⟨2, ![K, B]⟩, f n⟩ : (s : Shape) × (s.Idx → α))) h (ix2 l q)
      = f n (ix2 r q) :=
  concatenate_ofFn_apply (t := ⟨2, ![H, B]⟩) (s₁ := ⟨2, ![K, B]⟩) (0 : Fin 2) f h rfl K rfl (ix2 l q) n hn (ix2 r q) hr
    (fun b hb => by
      match b with
      | ⟨0, _⟩ => exact absurd rfl hb
      | ⟨1, _⟩ => rfl)

end Cert.LibJoinAxis
-- ==== Proof.LibJoinVectors.lean ====
/-
  A join of equally long vectors end to end, read at an entry.

  When N vectors of K entries each are laid end to end into one vector of W entries, entry l of the joined vector is
  entry l % K of piece l / K. The pieces are given as a family indexed by their position; a literal list of N pieces of
  one length is the list of that family.
-/
import Idealize.ShloMosaic.Lib.ValueIdx
import Idealize.ShloMosaic.Lib.Pipeline.Value

namespace Cert.LibJoinVectors

open Idealize.ShloMosaic Idealize.ShloMosaic.ValueIdx

/-- `N` vectors of `K` entries joined into `W` entries, read at `l`: piece `n = l / K` at entry `c = l % K`. -/
theorem joinVectors_apply {α : Type} {K N W : Nat} (f : Fin N → (⟨1, ![K]⟩ : Shape).Idx → α)
    (h : Shape.Concatenates
      ((List.ofFn fun n : Fin N => (⟨⟨1, ![K]⟩, f n⟩ : (s : Shape) × (s.Idx → α))).map (·.1)) ⟨1, ![W]⟩ 0)
    (l : Fin W) (n : Fin N) (hn : l.val / K = n.val) (c : Fin K) (hc : c.val = l.val % K) :
    concatenate ⟨1, ![W]⟩ 0 (List.ofFn fun n : Fin N => (⟨⟨1, ![K]⟩, f n⟩ : (s : Shape) × (s.Idx → α))) h (ix1 l)
      = f n (ix1 c) :=
  concatenate_ofFn_apply (t := ⟨1, ![W]⟩) (s₁ := ⟨1, ![K]⟩) (0 : Fin 1) f h rfl K rfl (ix1 l) n hn (ix1 c) hc
    (fun b hb => by
      match b with
      | ⟨0, _⟩ => exact absurd rfl hb)

end Cert.LibJoinVectors
-- ==== Proof.KernelEntries.lean ====
/-
  The kernel's results, read at an entry.

  From the closed expressions of the results in the arguments and the edge data: the hidden features at (v, q) are
  softplus of the first aggregate plus the bias; the location result at (v, j) is column j of the 128-wide array the
  last pallas_call leaves, and the scale result column 64 + j. Column l of that array sees column l of the second
  aggregate, which sees column l of the second product, which sees column l of the joined head weights: column j of
  W_mu for l = j, column j of W_sig for l = 64 + j. The joined bias row reads b_mu and b_sig the same way. So each
  head is the weighted sum, over the edges landing on v, of (hidden row · the head's own weight column), plus the
  head's own bias; the scale head exponentiated.
-/
import proofs.«102110_j30743375904797_1_alg».proof.Proof.KernelFold
import proofs.«102110_j30743375904797_1_alg».proof.Proof.LibJoinAxis
import proofs.«102110_j30743375904797_1_alg».proof.Proof.LibJoinVectors

noncomputable section

open scoped BigOperators

namespace Cert.KernelIdeal.Entries

open Cert.KernelIdeal Cert.KernelIdeal.Gen Cert.KernelIdeal.Fold
open Idealize.ShloMosaic Idealize.ShloMosaic.TcCoe Idealize.SL.Sem Idealize.ShloMosaic.ValueIdx Idealize.ShloMosaic.RowOps
open Cert.KernelIdeal.NodeAggregate (aggregate sourceColumn destColumn)
open Cert.KernelIdeal.FeatureProduct (featureProduct)
open Cert.KernelIdeal.BiasSoftplus (biasSoftplus)
open Cert.KernelIdeal.HeadProduct (headProduct)
open Cert.KernelIdeal.BiasSplit (biasSplit)
open Cert.Activation

variable (m : (ℓ : Loc nD τ sig) → Buf (Elt Ideal) ℓ) (ρ : Dev nD → PrngReg) (c : Dev nD)

/-! ## The arguments, as arrays of extended reals -/

/-- The node features. -/
abbrev features : FVec Ideal S100000x256 .f32 := m ((c : Thread nD τ).loc main_arg0)
/-- The first layer's weights. -/
abbrev weights1 : FVec Ideal S256x128 .f32 := m ((c : Thread nD τ).loc main_arg2)
/-- The first layer's bias. -/
abbrev bias1 : FVec Ideal S128 .f32 := m ((c : Thread nD τ).loc main_arg3)
/-- The location head's weights. -/
abbrev weightsLoc : FVec Ideal S128x64 .f32 := m ((c : Thread nD τ).loc main_arg4)
/-- The location head's bias. -/
abbrev biasLoc : FVec Ideal S64 .f32 := m ((c : Thread nD τ).loc main_arg5)
/-- The scale head's weights. -/
abbrev weightsScale : FVec Ideal S128x64 .f32 := m ((c : Thread nD τ).loc main_arg6)
/-- The scale head's bias. -/
abbrev biasScale : FVec Ideal S64 .f32 := m ((c : Thread nD τ).loc main_arg7)

/-- The hidden features at (v, q). -/
theorem hidden_apply (v : Fin 100000) (q : Fin 128) :
    hidden m ρ c (ix2 v q)
      = softplus ((∑ e ∈ Finset.univ.filter (fun e : Fin 1700000 => lands (destColumn (destIds m ρ c)) e v),
          (∑ k : Fin 256, (features m c) (ix2 (pickRow (N := 100000) (by decide) (sourceColumn (sourceIds m ρ c)) e) k) * (weights1 m c) (ix2 k q))
            * edgeWeights m ρ c (ix1 e)) + (bias1 m c) (ix1 q)) := by
  show biasSoftplus _ _ (ix2 v q) = _
  unfold biasSoftplus
  show softplus (aggregate _ _ _ _ (ix2 v q) + shapeCast S1x128 (bias1 m c) shapeCasts_S128_S1x128 (ix2 (0 : Fin 1) q)) = _
  rw [NodeAggregate.aggregate_apply, shapeCast_a_1a_apply]
  rfl

/-- The location result at (v, j). -/
theorem location_apply (v : Fin 100000) (j : Fin 64) :
    extractStridedSlice S100000x64 ![0, 0] (bothHeads m ρ c) slices_S100000x128_S100000x64_0_0 (ix2 v j)
      = (∑ e ∈ Finset.univ.filter (fun e : Fin 1700000 => lands (destColumn (destIds m ρ c)) e v),
          (∑ k : Fin 128, hidden m ρ c (ix2 (pickRow (N := 100000) (by decide) (sourceColumn (sourceIds m ρ c)) e) k)
              * (weightsLoc m c) (ix2 k j))
            * edgeWeights m ρ c (ix1 e)) + (biasLoc m c) (ix1 j) := by
  have hl : 0 + j.val < 128 := by have := j.isLt; omega
  rw [slice2_axis1_apply 0 (bothHeads m ρ c) slices_S100000x128_S100000x64_0_0 v j ⟨0 + j.val, hl⟩ rfl]
  show biasSplit _ _ (ix2 v ⟨0 + j.val, hl⟩) = _
  unfold biasSplit
  show (if 0 + j.val < 64 then _ else _) = _
  rw [if_pos (by have := j.isLt; omega)]
  have hcol : ∀ k : Fin 128, headWeights m c (ix2 k ⟨0 + j.val, hl⟩) = (weightsLoc m c) (ix2 k j) := fun k =>
    Cert.LibJoinAxis.joinCols_apply (A := 128) (K := 64) (N := 2) (W := 128)
      ![(weightsLoc m c), (weightsScale m c)] concatenates_S128x64_S128x64_S128x128_d1 k ⟨0 + j.val, hl⟩ (0 : Fin 2)
      (by show (0 + j.val) / 64 = 0; have := j.isLt; omega) j (by show j.val = (0 + j.val) % 64; have := j.isLt; omega)
  have hbias : headBiasRow m c (ix2 (0 : Fin 1) ⟨0 + j.val, hl⟩) = (biasLoc m c) (ix1 j) := by
    show shapeCast S1x128 _ shapeCasts_S128_S1x128 (ix2 (0 : Fin 1) ⟨0 + j.val, hl⟩) = _
    rw [shapeCast_a_1a_apply]
    exact Cert.LibJoinVectors.joinVectors_apply (K := 64) (N := 2) (W := 128) ![(biasLoc m c), (biasScale m c)]
      concatenates_S64_S64_S128_d0 ⟨0 + j.val, hl⟩ (0 : Fin 2)
      (by show (0 + j.val) / 64 = 0; have := j.isLt; omega) j (by show j.val = (0 + j.val) % 64; have := j.isLt; omega)
  show aggregate _ _ _ _ (ix2 v ⟨0 + j.val, hl⟩) + headBiasRow m c (ix2 (0 : Fin 1) ⟨0 + j.val, hl⟩) = _
  rw [NodeAggregate.aggregate_apply, hbias]
  refine congrArg (· + (biasLoc m c) (ix1 j)) (Finset.sum_congr rfl fun e _ => ?_)
  refine congrArg (· * edgeWeights m ρ c (ix1 e)) ?_
  show (∑ k : Fin 128, hidden m ρ c (ix2 _ k) * headWeights m c (ix2 k ⟨0 + j.val, hl⟩)) = _
  simp only [hcol]

/-- The scale result at (v, j). -/
theorem scale_apply (v : Fin 100000) (j : Fin 64) :
    extractStridedSlice S100000x64 ![0, 64] (bothHeads m ρ c) slices_S100000x128_S100000x64_0_64 (ix2 v j)
      = Ideal.exp ((∑ e ∈ Finset.univ.filter (fun e : Fin 1700000 => lands (destColumn (destIds m ρ c)) e v),
          (∑ k : Fin 128, hidden m ρ c (ix2 (pickRow (N := 100000) (by decide) (sourceColumn (sourceIds m ρ c)) e) k)
              * (weightsScale m c) (ix2 k j))
            * edgeWeights m ρ c (ix1 e)) + (biasScale m c) (ix1 j)) := by
  have hl : 64 + j.val < 128 := by have := j.isLt; omega
  rw [slice2_axis1_apply 64 (bothHeads m ρ c) slices_S100000x128_S100000x64_0_64 v j ⟨64 + j.val, hl⟩ rfl]
  show biasSplit _ _ (ix2 v ⟨64 + j.val, hl⟩) = _
  unfold biasSplit
  show (if 64 + j.val < 64 then _ else _) = _
  rw [if_neg (by omega)]
  have hcol : ∀ k : Fin 128, headWeights m c (ix2 k ⟨64 + j.val, hl⟩) = (weightsScale m c) (ix2 k j) := fun k =>
    Cert.LibJoinAxis.joinCols_apply (A := 128) (K := 64) (N := 2) (W := 128)
      ![(weightsLoc m c), (weightsScale m c)] concatenates_S128x64_S128x64_S128x128_d1 k ⟨64 + j.val, hl⟩ (1 : Fin 2)
      (by show (64 + j.val) / 64 = 1; have := j.isLt; omega) j (by show j.val = (64 + j.val) % 64; have := j.isLt; omega)
  have hbias : headBiasRow m c (ix2 (0 : Fin 1) ⟨64 + j.val, hl⟩) = (biasScale m c) (ix1 j) := by
    show shapeCast S1x128 _ shapeCasts_S128_S1x128 (ix2 (0 : Fin 1) ⟨64 + j.val, hl⟩) = _
    rw [shapeCast_a_1a_apply]
    exact Cert.LibJoinVectors.joinVectors_apply (K := 64) (N := 2) (W := 128) ![(biasLoc m c), (biasScale m c)]
      concatenates_S64_S64_S128_d0 ⟨64 + j.val, hl⟩ (1 : Fin 2)
      (by show (64 + j.val) / 64 = 1; have := j.isLt; omega) j (by show j.val = (64 + j.val) % 64; have := j.isLt; omega)
  show Ideal.exp (aggregate _ _ _ _ (ix2 v ⟨64 + j.val, hl⟩) + headBiasRow m c (ix2 (0 : Fin 1) ⟨64 + j.val, hl⟩)) = _
  rw [NodeAggregate.aggregate_apply, hbias]
  refine congrArg Ideal.exp ?_
  refine congrArg (· + (biasScale m c) (ix1 j)) (Finset.sum_congr rfl fun e _ => ?_)
  refine congrArg (· * edgeWeights m ρ c (ix1 e)) ?_
  show (∑ k : Fin 128, hidden m ρ c (ix2 _ k) * headWeights m c (ix2 k ⟨64 + j.val, hl⟩)) = _
  simp only [hcol]

end Cert.KernelIdeal.Entries

end
-- ==== Proof.ReferenceEntries.lean ====
/-
  The reference, read at an entry.

  Each stage of the reference that matters to the comparison, read at coordinates on the extended reals:
  the first product as a sum over the 256 features; the first aggregation as the weighted sum over the edges that land
  on a node of the product's entry on the row each edge reads; the hidden features as softplus of that plus the bias;
  and each head — the second product restricted to the head's 64 columns, aggregated the same way, plus the head's
  bias, the scale head exponentiated. The guard of the host's softplus ("differs from itself") never fires on the
  extended reals.
-/
import proofs.«102110_j30743375904797_1_alg».proof.Proof.ReferenceRead
import proofs.«102110_j30743375904797_1_alg».proof.Proof.LibGraphAggregate
import proofs.«102110_j30743375904797_1_alg».proof.Proof.LibPlainMatmul
import proofs.«102110_j30743375904797_1_alg».proof.Proof.Activation

noncomputable section

open scoped BigOperators

namespace Cert.ReferenceIdeal.Entries

open Cert.ReferenceIdeal Cert.ReferenceIdeal.Facts₀ Cert.ReferenceIdeal.ReadP
open Idealize.ShloMosaic Idealize.ShloMosaic.ValueIdx Idealize.ShloMosaic.RowOps Cert.Activation

variable (x0 : (⟨S100000x256, .f32⟩ : BufTy).Contents (Elt Ideal)) (x1 : (⟨S2x1600000, .i32⟩ : BufTy).Contents (Elt Ideal)) (x2 : (⟨S256x128, .f32⟩ : BufTy).Contents (Elt Ideal))
  (x3 : (⟨S128, .f32⟩ : BufTy).Contents (Elt Ideal))

/-- The first product at (r, q): the sum over the 256 features. -/
theorem features_apply (r : Fin 100000) (q : Fin 128) :
    val_main_v30 (F := Ideal) x0 x2 (ix2 r q) = ∑ k : Fin 256, x0 (ix2 r k) * x2 (ix2 k q) := by
  unfold val_main_v30
  simp only [Host.dotGeneral]
  exact Cert.PlainMatmul.dotGeneral_apply dot_S100000x256_S256x128_S100000x128_1_0_0_1_n_n.wf none _ x0 x2 r q

/-- The first aggregation at (v, q): the weighted sum over the edges that land on v. -/
theorem aggregated1_apply (v : Fin 100000) (q : Fin 128) :
    val_main_v43 (F := Ideal) x0 x1 x2 (ix2 v q)
      = ∑ e ∈ Finset.univ.filter (fun e : Fin 1700000 => lands (val_main_v42 (F := Ideal) x1) e v),
          val_main_v30 (F := Ideal) x0 x2 (ix2 (pickRow (N := 100000) (by decide) (val_main_v36 (F := Ideal) x1) e) q)
            * val_main_v29 (F := Ideal) x1 (ix1 e) := by
  unfold val_main_v43 val_main_v41 val_main_cst_8 val_main_v40 val_main_v37 val_main_v39 val_main_v38
  exact RowOps.aggregate_apply (N := 100000) (E := 1700000) (C := 128) (by decide) (by decide)
    gather_S100000x128_S1700000x1_S1700000x128_1_0_n_n_0_1_1128.wf scatter_S100000x128_S1700000x1_S1700000x128_1_0_0_1.wf
    bcast_S_S100000x128 bcast_S1700000_S1700000x1_0 bcast_S1700000x1_S1700000x128_0_1
    (val_main_v36 (F := Ideal) x1) (val_main_v42 (F := Ideal) x1) (val_main_v29 (F := Ideal) x1)
    (val_main_v30 (F := Ideal) x0 x2) v q

/-- The three zero splats of the host's softplus are zero at every entry. -/
theorem softplusZeros (i : S100000x128.Idx) :
    val_main_call1_v0 (F := Ideal) i = (0 : EReal) ∧ val_main_call1_v2 (F := Ideal) i = (0 : EReal)
      ∧ val_main_call1_v5 (F := Ideal) i = (0 : EReal) := by
  refine ⟨?_, ?_, ?_⟩
  · rw [val_main_call1_v0_apply]; exact Ideal.ofBits_zero_f32
  · rw [val_main_call1_v2_apply]; exact Ideal.ofBits_zero_f32
  · rw [val_main_call1_v5_apply]; exact Ideal.ofBits_zero_f32

/-- The hidden features at (v, q): softplus of the aggregate plus the bias. -/
theorem hidden_apply (v : Fin 100000) (q : Fin 128) :
    val_main_v47 (F := Ideal) x0 x1 x2 x3 (ix2 v q)
      = softplus (val_main_v43 (F := Ideal) x0 x1 x2 (ix2 v q) + x3 (ix1 q)) := by
  obtain ⟨h0, h2, h5⟩ := softplusZeros (ix2 v q)
  have hb : val_main_v45 (F := Ideal) x3 (ix2 v q) = x3 (ix1 q) := by
    rw [val_main_v45_apply, val_main_v44_apply]
    exact congrArg x3 (funext fun a => by
      match a with
      | ⟨0, _⟩ => rfl)
  rw [val_main_v47_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, h0, h2, h5]
  simp only [Ideal.cmpf_def, Ideal.subf_def, Ideal.addf_def, Ideal.maximumf_def, Ideal.hostUnary_log1p_def,
    Ideal.hostUnary_exp_def, Ideal.hostNegf_def, Ideal.hostAbsf_def, Ideal.negf_def, Ideal.absf_def]
  rw [softplus_of_host_form _ 0 rfl, val_main_v46_apply, hb, Ideal.addf_def]

/-- The location head at (v, j). -/
theorem location_apply (x4 : (⟨S128x64, .f32⟩ : BufTy).Contents (Elt Ideal)) (x5 : (⟨S64, .f32⟩ : BufTy).Contents (Elt Ideal)) (v : Fin 100000) (j : Fin 64) :
    val_main_v64 (F := Ideal) x0 x1 x2 x3 x4 x5 (ix2 v j)
      = (∑ e ∈ Finset.univ.filter (fun e : Fin 1700000 => lands (val_main_v60 (F := Ideal) x1) e v),
          (∑ k : Fin 128, val_main_v47 (F := Ideal) x0 x1 x2 x3
              (ix2 (pickRow (N := 100000) (by decide) (val_main_v54 (F := Ideal) x1) e) k) * x4 (ix2 k j))
            * val_main_v29 (F := Ideal) x1 (ix1 e)) + x5 (ix1 j) := by
  have hagg : val_main_v61 (F := Ideal) x0 x1 x2 x3 x4 (ix2 v j)
      = ∑ e ∈ Finset.univ.filter (fun e : Fin 1700000 => lands (val_main_v60 (F := Ideal) x1) e v),
          val_main_v48 (F := Ideal) x0 x1 x2 x3 x4 (ix2 (pickRow (N := 100000) (by decide) (val_main_v54 (F := Ideal) x1) e) j)
            * val_main_v29 (F := Ideal) x1 (ix1 e) := by
    unfold val_main_v61 val_main_v59 val_main_cst_11 val_main_v58 val_main_v55 val_main_v57 val_main_v56
    exact RowOps.aggregate_apply (N := 100000) (E := 1700000) (C := 64) (by decide) (by decide)
      gather_S100000x64_S1700000x1_S1700000x64_1_0_n_n_0_1_164.wf scatter_S100000x64_S1700000x1_S1700000x64_1_0_0_1.wf
      bcast_S_S100000x64 bcast_S1700000_S1700000x1_0 bcast_S1700000x1_S1700000x64_0_1
      (val_main_v54 (F := Ideal) x1) (val_main_v60 (F := Ideal) x1) (val_main_v29 (F := Ideal) x1)
      (val_main_v48 (F := Ideal) x0 x1 x2 x3 x4) v j
  have hdot : ∀ r : Fin 100000, val_main_v48 (F := Ideal) x0 x1 x2 x3 x4 (ix2 r j)
      = ∑ k : Fin 128, val_main_v47 (F := Ideal) x0 x1 x2 x3 (ix2 r k) * x4 (ix2 k j) := by
    intro r
    unfold val_main_v48
    simp only [Host.dotGeneral]
    exact Cert.PlainMatmul.dotGeneral_apply dot_S100000x128_S128x64_S100000x64_1_0_0_1_n_n.wf none _
      (val_main_v47 (F := Ideal) x0 x1 x2 x3) x4 r j
  have hbias : val_main_v63 (F := Ideal) x5 (ix2 v j) = x5 (ix1 j) := by
    rw [val_main_v63_apply, val_main_v62_apply]
    exact congrArg x5 (funext fun a => by
      match a with
      | ⟨0, _⟩ => rfl)
  rw [val_main_v64_apply, hagg, hbias, Ideal.addf_def]
  simp only [hdot]

/-- The scale head at (v, j). -/
theorem scale_apply (x6 : (⟨S128x64, .f32⟩ : BufTy).Contents (Elt Ideal)) (x7 : (⟨S64, .f32⟩ : BufTy).Contents (Elt Ideal)) (v : Fin 100000) (j : Fin 64) :
    val_main_v82 (F := Ideal) x0 x1 x2 x3 x6 x7 (ix2 v j)
      = Ideal.exp ((∑ e ∈ Finset.univ.filter (fun e : Fin 1700000 => lands (val_main_v77 (F := Ideal) x1) e v),
          (∑ k : Fin 128, val_main_v47 (F := Ideal) x0 x1 x2 x3
              (ix2 (pickRow (N := 100000) (by decide) (val_main_v71 (F := Ideal) x1) e) k) * x6 (ix2 k j))
            * val_main_v29 (F := Ideal) x1 (ix1 e)) + x7 (ix1 j)) := by
  have hagg : val_main_v78 (F := Ideal) x0 x1 x2 x3 x6 (ix2 v j)
      = ∑ e ∈ Finset.univ.filter (fun e : Fin 1700000 => lands (val_main_v77 (F := Ideal) x1) e v),
          val_main_v65 (F := Ideal) x0 x1 x2 x3 x6 (ix2 (pickRow (N := 100000) (by decide) (val_main_v71 (F := Ideal) x1) e) j)
            * val_main_v29 (F := Ideal) x1 (ix1 e) := by
    unfold val_main_v78 val_main_v76 val_main_cst_14 val_main_v75 val_main_v72 val_main_v74 val_main_v73
    exact RowOps.aggregate_apply (N := 100000) (E := 1700000) (C := 64) (by decide) (by decide)
      gather_S100000x64_S1700000x1_S1700000x64_1_0_n_n_0_1_164.wf scatter_S100000x64_S1700000x1_S1700000x64_1_0_0_1.wf
      bcast_S_S100000x64 bcast_S1700000_S1700000x1_0 bcast_S1700000x1_S1700000x64_0_1
      (val_main_v71 (F := Ideal) x1) (val_main_v77 (F := Ideal) x1) (val_main_v29 (F := Ideal) x1)
      (val_main_v65 (F := Ideal) x0 x1 x2 x3 x6) v j
  have hdot : ∀ r : Fin 100000, val_main_v65 (F := Ideal) x0 x1 x2 x3 x6 (ix2 r j)
      = ∑ k : Fin 128, val_main_v47 (F := Ideal) x0 x1 x2 x3 (ix2 r k) * x6 (ix2 k j) := by
    intro r
    unfold val_main_v65
    simp only [Host.dotGeneral]
    exact Cert.PlainMatmul.dotGeneral_apply dot_S100000x128_S128x64_S100000x64_1_0_0_1_n_n.wf none _
      (val_main_v47 (F := Ideal) x0 x1 x2 x3) x6 r j
  have hbias : val_main_v80 (F := Ideal) x7 (ix2 v j) = x7 (ix1 j) := by
    rw [val_main_v80_apply, val_main_v79_apply]
    exact congrArg x7 (funext fun a => by
      match a with
      | ⟨0, _⟩ => rfl)
  rw [val_main_v82_apply, val_main_v81_apply, hagg, hbias, Ideal.hostUnary_exp_def, Ideal.addf_def]
  simp only [hdot]

/-- The index columns are computed anew for every aggregation, by the same operations on the same ids. -/
theorem sourceColumn2 : val_main_v54 (F := Ideal) x1 = val_main_v36 (F := Ideal) x1 := rfl
theorem sourceColumn3 : val_main_v71 (F := Ideal) x1 = val_main_v36 (F := Ideal) x1 := rfl
theorem destColumn2 : val_main_v60 (F := Ideal) x1 = val_main_v42 (F := Ideal) x1 := rfl
theorem destColumn3 : val_main_v77 (F := Ideal) x1 = val_main_v42 (F := Ideal) x1 := rfl

end Cert.ReferenceIdeal.Entries

end
-- ==== Proof.EdgeData.lean ====
/-
  The kernel's edge data are the reference's.

  Before its first pallas_call the kernel's program runs the very operations the reference starts with: the source and
  destination ids (the edge list's two rows, each followed by the node ids 0 … N − 1 for the self-loops), the node
  degrees (a scatter-add of ones at the destination ids), their inverse square roots where positive and zero
  elsewhere, and the edge weights (that vector gathered at the sources times the same gathered at the destinations).
  Buffer by buffer — ids, degrees, the positivity test, the inverse square roots, the guarded vector, the weights —
  the kernel's contents are the reference's stages of the same edge list.
-/
import proofs.«102110_j30743375904797_1_alg».proof.Proof.KernelFold
import proofs.«102110_j30743375904797_1_alg».proof.Proof.ReferenceRead

set_option maxRecDepth 16384

noncomputable section

namespace Cert.EdgeData

open Cert.KernelIdeal Cert.KernelIdeal.Gen Cert.KernelIdeal.Fold
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch: ids, degrees, the test and the inverse square roots -/

theorem sources1 : (W1 m ρ c (Proc.devRef .tc main_v3)) = Cert.ReferenceIdeal.ReadP.val_main_v3 (F := Ideal) (m ((c : Thread nD τ).loc main_arg1)) := by
  show StableHlo.after hostOps0 (W0 m ρ c) (Proc.devRef .tc main_v3) = _
  after_results_simp <;> rfl

theorem dests1 : (W1 m ρ c (Proc.devRef .tc main_v6)) = Cert.ReferenceIdeal.ReadP.val_main_v6 (F := Ideal) (m ((c : Thread nD τ).loc main_arg1)) := by
  show StableHlo.after hostOps0 (W0 m ρ c) (Proc.devRef .tc main_v6) = _
  after_results_simp <;> rfl

theorem degrees1 : (W1 m ρ c (Proc.devRef .tc main_v10)) = Cert.ReferenceIdeal.ReadP.val_main_v10 (F := Ideal) (m ((c : Thread nD τ).loc main_arg1)) := by
  show StableHlo.after hostOps0 (W0 m ρ c) (Proc.devRef .tc main_v10) = _
  after_results_simp <;> rfl

theorem positive1 : (W1 m ρ c (Proc.devRef .tc main_v12)) = Cert.ReferenceIdeal.ReadP.val_main_v12 (F := Ideal) (m ((c : Thread nD τ).loc main_arg1)) := by
  have h : (W1 m ρ c (Proc.devRef .tc main_v12))
      = cmpf .ogt (W1 m ρ c (Proc.devRef .tc main_v10)) (broadcastInDim S100000 ![] bcast_S_S100000 (constant (F := Ideal) S_ .f32 0x00000000#32)) := by
    show StableHlo.after hostOps0 (W0 m ρ c) (Proc.devRef .tc main_v12) = _
    after_results_simp <;> rfl
  rw [h, degrees1]
  rfl

theorem invSqrt1 : (W1 m ρ c (Proc.devRef .tc main_v13)) = Cert.ReferenceIdeal.ReadP.val_main_v13 (F := Ideal) (m ((c : Thread nD τ).loc main_arg1)) := by
  have h : (W1 m ρ c (Proc.devRef .tc main_v13)) = Host.rsqrt (F := Ideal) (s := S100000) (φ := .f32) (W1 m ρ c (Proc.devRef .tc main_v10)) := by
    show StableHlo.after hostOps0 (W0 m ρ c) (Proc.devRef .tc main_v13) = _
    after_results_simp <;> rfl
  rw [h, degrees1]
  rfl

theorem zero1 : (W1 m ρ c (Proc.devRef .tc main_cst_2)) = constant (F := Ideal) S_ .f32 0x00000000#32 := by
  show StableHlo.after hostOps0 (W0 m ρ c) (Proc.devRef .tc main_cst_2) = _
  after_results_simp <;> rfl

/-! ## The guarded inverse square roots (the second stretch), from any contents before it -/

section
variable (V : Valuation τ sig (Elt Ideal))

theorem guarded_of : StableHlo.after hostOps0_1 V (Proc.devRef .tc main_v14)
    = select (V (Proc.devRef .tc main_v12)) (V (Proc.devRef .tc main_v13)) (broadcastInDim S100000 ![] bcast_S_S100000 (V (Proc.devRef .tc main_cst_2))) := by
  after_results_simp <;> rfl

theorem sources_kept1 : StableHlo.after hostOps0_1 V (Proc.devRef .tc main_v3) = (V (Proc.devRef .tc main_v3)) := by
  after_results_simp <;> rfl

theorem dests_kept1 : StableHlo.after hostOps0_1 V (Proc.devRef .tc main_v6) = (V (Proc.devRef .tc main_v6)) := by
  after_results_simp <;> rfl

/-! ## The third stretch, from any contents before it -/

theorem sources_kept2 : StableHlo.after hostOps0_2 V (Proc.devRef .tc main_v3) = (V (Proc.devRef .tc main_v3)) := by
  after_results_simp <;> rfl

theorem dests_kept2 : StableHlo.after hostOps0_2 V (Proc.devRef .tc main_v6) = (V (Proc.devRef .tc main_v6)) := by
  after_results_simp <;> rfl

theorem atSources_of : StableHlo.after hostOps0_2 V (Proc.devRef .tc main_v21)
    = Host.gather gather_S100000_S1700000x1_S1700000_n_0_n_n_0_1_1 (V (Proc.devRef .tc main_v14))
        (broadcastInDim S1700000x1 ![0] bcast_S1700000_S1700000x1_0
          (select (cmpi .slt (V (Proc.devRef .tc main_v3)) (broadcastInDim S1700000 ![] bcast_S_S1700000 (constantI S_ 32 0#32)))
            (addi (V (Proc.devRef .tc main_v3)) (broadcastInDim S1700000 ![] bcast_S_S1700000 (constantI S_ 32 100000#32))) (V (Proc.devRef .tc main_v3)))) := by
  after_results_simp <;> rfl

theorem atDests_of : StableHlo.after hostOps0_2 V (Proc.devRef .tc main_v28)
    = Host.gather gather_S100000_S1700000x1_S1700000_n_0_n_n_0_1_1 (V (Proc.devRef .tc main_v14))
        (broadcastInDim S1700000x1 ![0] bcast_S1700000_S1700000x1_0
          (select (cmpi .slt (V (Proc.devRef .tc main_v6)) (broadcastInDim S1700000 ![] bcast_S_S1700000 (constantI S_ 32 0#32)))
            (addi (V (Proc.devRef .tc main_v6)) (broadcastInDim S1700000 ![] bcast_S_S1700000 (constantI S_ 32 100000#32))) (V (Proc.devRef .tc main_v6)))) := by
  after_results_simp <;> rfl

theorem weights_of : StableHlo.after hostOps0_2 V (Proc.devRef .tc main_v29)
    = mulf (F := Ideal) (s := S1700000) (φ := .f32) (StableHlo.after hostOps0_2 V (Proc.devRef .tc main_v21)) (StableHlo.after hostOps0_2 V (Proc.devRef .tc main_v28)) := by
  after_results_simp <;> rfl

end

/-! ## The edge data at the first pallas_call's entry -/

theorem guarded2 : W2 m ρ c (Proc.devRef .tc main_v14) = Cert.ReferenceIdeal.ReadP.val_main_v14 (F := Ideal) (m ((c : Thread nD τ).loc main_arg1)) := by
  show StableHlo.after hostOps0_1 (W1 m ρ c) (Proc.devRef .tc main_v14) = _
  rw [guarded_of, positive1, invSqrt1, zero1]
  rfl

theorem sources2 : W2 m ρ c (Proc.devRef .tc main_v3) = Cert.ReferenceIdeal.ReadP.val_main_v3 (F := Ideal) (m ((c : Thread nD τ).loc main_arg1)) := by
  show StableHlo.after hostOps0_1 (W1 m ρ c) (Proc.devRef .tc main_v3) = _
  rw [sources_kept1, sources1]

theorem dests2 : W2 m ρ c (Proc.devRef .tc main_v6) = Cert.ReferenceIdeal.ReadP.val_main_v6 (F := Ideal) (m ((c : Thread nD τ).loc main_arg1)) := by
  show StableHlo.after hostOps0_1 (W1 m ρ c) (Proc.devRef .tc main_v6) = _
  rw [dests_kept1, dests1]

/-- The source ids. -/
theorem sourceIds_eq : sourceIds m ρ c = Cert.ReferenceIdeal.ReadP.val_main_v3 (F := Ideal) (m ((c : Thread nD τ).loc main_arg1)) := by
  unfold sourceIds
  show StableHlo.after hostOps0_2 (W2 m ρ c) (Proc.devRef .tc main_v3) = _
  rw [sources_kept2, sources2]

/-- The destination ids. -/
theorem destIds_eq : destIds m ρ c = Cert.ReferenceIdeal.ReadP.val_main_v6 (F := Ideal) (m ((c : Thread nD τ).loc main_arg1)) := by
  unfold destIds
  show StableHlo.after hostOps0_2 (W2 m ρ c) (Proc.devRef .tc main_v6) = _
  rw [dests_kept2, dests2]

theorem atSources3 : W3 m ρ c (Proc.devRef .tc main_v21) = Cert.ReferenceIdeal.ReadP.val_main_v21 (F := Ideal) (m ((c : Thread nD τ).loc main_arg1)) := by
  show StableHlo.after hostOps0_2 (W2 m ρ c) (Proc.devRef .tc main_v21) = _
  rw [atSources_of, guarded2, sources2]
  rfl

theorem atDests3 : W3 m ρ c (Proc.devRef .tc main_v28) = Cert.ReferenceIdeal.ReadP.val_main_v28 (F := Ideal) (m ((c : Thread nD τ).loc main_arg1)) := by
  show StableHlo.after hostOps0_2 (W2 m ρ c) (Proc.devRef .tc main_v28) = _
  rw [atDests_of, guarded2, dests2]
  rfl

/-- The edge weights. -/
theorem edgeWeights_eq : edgeWeights m ρ c = Cert.ReferenceIdeal.ReadP.val_main_v29 (F := Ideal) (m ((c : Thread nD τ).loc main_arg1)) := by
  unfold edgeWeights
  show StableHlo.after hostOps0_2 (W2 m ρ c) (Proc.devRef .tc main_v29) = _
  rw [weights_of]
  show mulf (F := Ideal) (s := S1700000) (φ := .f32) (W3 m ρ c (Proc.devRef .tc main_v21)) (W3 m ρ c (Proc.devRef .tc main_v28)) = _
  rw [atSources3, atDests3]
  rfl

end Cert.EdgeData

end
-- ==== Proof.Bridge.lean ====
/-
  The kernel's results are the reference's.

  The edge data the kernel's host operations compute before the first pallas_call — source ids, destination ids, edge
  weights — are the reference's own stages: the same operations on the same edge list. With them identified, the hidden
  features agree entry by entry (both are softplus of the same weighted sum of the same product plus the same bias), and
  then so do the two heads: the kernel's column j (or 64 + j) of the joined computation is the reference's column j of
  the head computed by itself, because every step between the joined weights and the joined result acts column by
  column.
-/
import proofs.«102110_j30743375904797_1_alg».proof.Proof.KernelEntries
import proofs.«102110_j30743375904797_1_alg».proof.Proof.ReferenceEntries
import proofs.«102110_j30743375904797_1_alg».proof.Proof.EdgeData

set_option maxRecDepth 16384

noncomputable section

open scoped BigOperators

namespace Cert.Bridge

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Idealize.ShloMosaic.RowOps
open Cert.KernelIdeal.NodeAggregate (sourceColumn destColumn)
open Cert.EdgeData (sourceIds_eq destIds_eq edgeWeights_eq)

variable (m : (ℓ : Loc nD τ sig) → Buf (Elt Ideal) ℓ) (ρ : Dev nD → PrngReg) (c : Dev nD)

/-! ## The index columns -/

/-- The gather's index column, built from the reference's source ids, is the reference's own column … -/
theorem sourceColumn_eq (x1 : (⟨Cert.ReferenceIdeal.S2x1600000, .i32⟩ : BufTy).Contents (Elt Ideal)) :
    sourceColumn (Cert.ReferenceIdeal.ReadP.val_main_v3 (F := Ideal) x1) = Cert.ReferenceIdeal.ReadP.val_main_v36 (F := Ideal) x1 := rfl

/-- … and so is the scatter's. -/
theorem destColumn_eq (x1 : (⟨Cert.ReferenceIdeal.S2x1600000, .i32⟩ : BufTy).Contents (Elt Ideal)) :
    destColumn (Cert.ReferenceIdeal.ReadP.val_main_v6 (F := Ideal) x1) = Cert.ReferenceIdeal.ReadP.val_main_v42 (F := Ideal) x1 := rfl

/-! ## The hidden features agree -/

theorem hidden_agrees (v : Fin 100000) (q : Fin 128) :
    hidden m ρ c (ix2 v q)
      = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) (ix2 v q) := by
  rw [Cert.KernelIdeal.Entries.hidden_apply, Cert.ReferenceIdeal.Entries.hidden_apply,
    Cert.ReferenceIdeal.Entries.aggregated1_apply, sourceIds_eq, destIds_eq, edgeWeights_eq, sourceColumn_eq, destColumn_eq]
  simp only [Cert.ReferenceIdeal.Entries.features_apply]

/-! ## The two results agree -/

/-- The location result. -/
theorem location_agrees : W11 m ρ c (Proc.devRef .tc main_v64)
    = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [location_eq]
  funext i
  obtain ⟨v, j, rfl⟩ : ∃ (v : Fin 100000) (j : Fin 64), i = ix2 v j := ⟨i 0, i 1, eq_ix2 i⟩
  rw [Cert.KernelIdeal.Entries.location_apply, Cert.ReferenceIdeal.Entries.location_apply,
    Cert.ReferenceIdeal.Entries.sourceColumn2, Cert.ReferenceIdeal.Entries.destColumn2,
    sourceIds_eq, destIds_eq, edgeWeights_eq, sourceColumn_eq, destColumn_eq]
  simp only [hidden_agrees]

/-- The scale result. -/
theorem scale_agrees : W11 m ρ c (Proc.devRef .tc main_v65)
    = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  rw [scale_eq]
  funext i
  obtain ⟨v, j, rfl⟩ : ∃ (v : Fin 100000) (j : Fin 64), i = ix2 v j := ⟨i 0, i 1, eq_ix2 i⟩
  rw [Cert.KernelIdeal.Entries.scale_apply, Cert.ReferenceIdeal.Entries.scale_apply,
    Cert.ReferenceIdeal.Entries.sourceColumn3, Cert.ReferenceIdeal.Entries.destColumn3,
    sourceIds_eq, destIds_eq, edgeWeights_eq, sourceColumn_eq, destColumn_eq]
  simp only [hidden_agrees]

end Cert.Bridge

end
-- ==== Proof.lean ====
/-
  A two-layer graph encoder with two heads: the Pallas program against its jnp reference, on the extended reals.

  Both programs first build, from the edge list, the edges with self-loops, the node degrees, and the per-edge weight
  d(src)^(-1/2) · d(dst)^(-1/2) (zero where a degree is zero). Layer one transforms the features by W1, aggregates
  along the edges (gather the source rows, scale by the edge weight, add into the destination rows), adds b1 and takes
  softplus. The reference then runs layer two once per head (W_mu with b_mu; W_sig with b_sig, exponentiated). The
  kernel runs it once for both heads: one product against [W_mu | W_sig], one aggregation 128 columns wide, one
  bias-and-activation pass that keeps the first 64 columns and exponentiates the last 64, and two column slices.

  The two computations are the same function of the arguments because every step between the joined weights and the
  joined result acts column by column: column l of a product depends on column l of the right factor, column l of an
  aggregate on column l of what is aggregated, and the bias and the activation are entrywise. No rearrangement of a sum
  is involved — both programs transform first and aggregate second — so the inputs' finiteness is never used. The
  kernel's products narrow their operands to bf16 first, which on the extended reals is the identity.

  The kernel's value is read off its run: the results sit at the last boundary's contents of a fold through the
  program's eleven segments (Proof/KernelResults.lean), which is opened boundary by boundary (Proof/KernelFold.lean)
  over each pallas_call's whole-array function (Proof/FeatureProduct.lean, BiasSoftplus.lean, HeadProduct.lean,
  BiasSplit.lean) and read at an entry (Proof/KernelEntries.lean); the reference's stages are read at an entry in
  Proof/ReferenceEntries.lean; Proof/Bridge.lean joins the two.
-/
import proofs.«102110_j30743375904797_1_alg».proof.Defs
import proofs.«102110_j30743375904797_1_alg».proof.Proof.Gen.Kernel
import proofs.«102110_j30743375904797_1_alg».proof.Proof.Gen.Kernel.Frame
import proofs.«102110_j30743375904797_1_alg».proof.Proof.Gen.KernelIdeal
import proofs.«102110_j30743375904797_1_alg».proof.Proof.Gen.KernelIdeal.Frame
import proofs.«102110_j30743375904797_1_alg».proof.Proof.Gen.ReferenceIdeal
import proofs.«102110_j30743375904797_1_alg».proof.Proof.Gen.Pre_finite_inputs
import proofs.«102110_j30743375904797_1_alg».proof.Proof.KernelResults
import proofs.«102110_j30743375904797_1_alg».proof.Proof.ReferenceRun
import proofs.«102110_j30743375904797_1_alg».proof.Proof.ReferenceRead
import proofs.«102110_j30743375904797_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the results forgotten. -/
theorem frame_reference : Cert.frame_ReferenceIdeal := fun m ρ _ =>
  (θ_run Cert.ReferenceIdeal.defs _ _).mono (fun _ h c => (h c).2.2) (Cert.ReferenceIdeal.ValueP.run (F := Ideal) m ρ)

/-- The ideal reading rewrote no operation of the kernel. -/
theorem preserves : Cert.preserves_Kernel_KernelIdeal := trivial

/-- From memories that agree on the arguments both programs end with the same two results: the reference's location and
    scale stages of the arguments. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Results.run (F := Ideal) m ρ)
    obtain ⟨h64, h65, hargs⟩ := h c
    exact ⟨h64.trans (Cert.Bridge.location_agrees m ρ c), h65.trans (Cert.Bridge.scale_agrees m ρ c), hargs⟩
  · refine (θ_run Cert.ReferenceIdeal.defs _ _).mono (fun r h c => ?_) (Cert.ReferenceIdeal.ValueP.run (F := Ideal) m' ρ')
    obtain ⟨h64, h82, hargs⟩ := h c
    obtain ⟨e0, e1, e2, e3, e4, e5, e6, e7⟩ := hagree c
    refine ⟨h64.trans ?_, h82.trans ?_, hargs⟩
    · rw [Cert.ReferenceIdeal.ReadP.val_main_v64_eq, e0, e1, e2, e3, e4, e5]
    · rw [Cert.ReferenceIdeal.ReadP.val_main_v82_eq, e0, e1, e2, e3, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
